-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x3 .f32) (main_arg1 : IVec S2x3200000 32) (main_arg2 : FVec F S3x16 .f32) (main_arg3 : FVec F S16 .f32) (main_arg4 : FVec F S16x1 .f32) (main_arg5 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x3 : Shape := ⟨2, ![5000, 3]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S1x1 : Shape := ⟨2, ![1, 1]⟩

abbrev nBuf : Space → Nat
  | .hbm => 63
  | .vmem => 28
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x16, .f32⟩
  | .hbm, ⟨38, _⟩ => ⟨S_, .f32⟩
  | .hbm, ⟨39, _⟩ => ⟨S100000x16, .f32⟩
  | .hbm, ⟨40, _⟩ => ⟨S3300000x1, .i32⟩
  | .hbm, ⟨41, _⟩ => ⟨S100000x16, .f32⟩
  | .hbm, ⟨42, _⟩ => ⟨S100000x1, .f32⟩
  | .hbm, ⟨43, _⟩ => ⟨S1x16, .f32⟩
  | .hbm, ⟨44, _⟩ => ⟨S100000x16, .f32⟩
  | .hbm, ⟨45, _⟩ => ⟨S100000x1, .f32⟩
  | .hbm, ⟨46, _⟩ => ⟨S100000x1, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x1, .f32⟩
  | .hbm, ⟨56, _⟩ => ⟨S_, .f32⟩
  | .hbm, ⟨57, _⟩ => ⟨S100000x1, .f32⟩
  | .hbm, ⟨58, _⟩ => ⟨S3300000x1, .i32⟩
  | .hbm, ⟨59, _⟩ => ⟨S100000x1, .f32⟩
  | .hbm, ⟨60, _⟩ => ⟨S100000x1, .f32⟩
  | .hbm, ⟨61, _⟩ => ⟨S1x1, .f32⟩
  | .hbm, ⟨62, _⟩ => ⟨S100000x1, .f32⟩
  | .local _ .vmem, ⟨0, _⟩ => ⟨S5000x3, .f32⟩
  | .local _ .vmem, ⟨1, _⟩ => ⟨S5000x3, .f32⟩
  | .local _ .vmem, ⟨2, _⟩ => ⟨S3x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | .local _ .vmem, ⟨24, _⟩ => ⟨S5000x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S3300000x1_S3300000_n_0_0_1_wf : ScatterDims.WF S100000 S3300000x1 S3300000 [] [0] [0] 1
  dot_S5000x3_S3x16_S5000x16_1_0_0_1_n_n_wf : DotDims.WF S5000x3 S3x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x1_S5000x1_1_0_0_1_n_n_wf : DotDims.WF S5000x16 S16x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1.size a ≤ S16x1.size a
  hwx2_1 : ∀ i : grid2.Coords, EltTy.bits .f32 = 32 ∨ (Rect.block (s := S16x1) S16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S100000x1.size a
  hwx3_0 : ∀ i : grid3.Coords, EltTy.bits .f32 = 32 ∨ (Rect.block (s := S100000x1) S5000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x3_S3x16_S5000x16_1_0_0_1_n_n : DotDims S5000x3 S3x16 S5000x16 where
  lhsContracting := [1]
  rhsContracting := [0]
  lhsNonContracting := [0]
  rhsNonContracting := [1]
  lhsBatch := []
  rhsBatch := []
  wf := dot_S5000x3_S3x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x1, .f32⟩
  | .hbm, ⟨98, _⟩ => ⟨S3300000x1, .f32⟩
  | .hbm, ⟨99, _⟩ => ⟨S3300000x1, .f32⟩
  | .hbm, ⟨100, _⟩ => ⟨S_, .f32⟩
  | .hbm, ⟨101, _⟩ => ⟨S100000x1, .f32⟩
  | .hbm, ⟨102, _⟩ => ⟨S3300000x1, .i32⟩
  | .hbm, ⟨103, _⟩ => ⟨S100000x1, .f32⟩
  | .hbm, ⟨104, _⟩ => ⟨S1x1, .f32⟩
  | .hbm, ⟨105, _⟩ => ⟨S100000x1, .f32⟩
  | .hbm, ⟨106, _⟩ => ⟨S100000x1, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S100000x3_S3x16_S100000x16_1_0_0_1_n_n_wf : DotDims.WF S100000x3 S3x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Spec.lean ====
/-
  Two rounds of a degree-normalised neighbourhood sum over a graph's edges, and the law that lets the
  normalisation be taken out of the sum.

  A node p collects, over the edges e that land on it (a relation `L e p`), the feature row of the edge's
  source node `gs e`. One way scales every term by the two end points' weights, `dis (gs e) * dis (gd e)`,
  before the sum; the other scales the source's row by `dis (gs e)` before the sum and the whole sum by the
  weight `dis p` of the collecting node after it. An edge that lands on p has `gd e = p`, so the two ways differ by
  moving the factor `dis p` across a finite sum. On the extended reals that is sound because the weight is a
  nonnegative REAL number: multiplication by a nonnegative real distributes over every sum of extended
  reals, infinite terms included, so nothing is asked of the summands themselves.
-/
import Idealize.ShloMosaic.Lib.ValueIdx
import Idealize.ShloMosaic.PureOps.Ideal

noncomputable section

namespace Cert.Gcn

open Idealize.ShloMosaic Idealize.ShloMosaic.ValueIdx

/-! ## Moving a nonnegative real factor across a finite sum -/

/-- A finite sum of extended reals times a nonnegative real is the sum of the products. -/
theorem sum_mul_coe_nonneg {ι : Type*} (s : Finset ι) (f : ι → EReal) {c : ℝ} (hc : 0 ≤ c) :
    (∑ e ∈ s, f e) * (c : EReal) = ∑ e ∈ s, f e * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The neighbourhood sum scaled after the sum by the collecting node's weight is the sum of the terms each scaled by
    the weight of the node the edge lands on: the terms that count have that node equal to the collecting one. -/
theorem agg_scale {E : ℕ} (L : Fin E → Prop) [DecidablePred L] (a d c' : Fin E → EReal) {c : ℝ} (hc : 0 ≤ c)
    (hL : ∀ e, L e → c' e = (c : EReal)) :
    ((0 : EReal) + ∑ e, if L e then a e * d e else 0) * (c : EReal)
      = (0 : EReal) + ∑ e, if L e then a e * (d e * c' e) else 0 := by
  rw [zero_add, zero_add, sum_mul_coe_nonneg _ _ hc]
  refine Finset.sum_congr rfl fun e _ => ?_
  split_ifs with h
  · rw [hL e h, mul_assoc]
  · exact zero_mul _

/-! ## The two layers -/

variable {n E a b : ℕ}

/-- A product of a node-feature matrix with a weight matrix. -/
def lin (X : Fin n → Fin a → EReal) (W : Fin a → Fin b → EReal) : Fin n → Fin b → EReal :=
  fun p q => ∑ k, X p k * W k q

/-- One layer with the source's weight applied before the sum and the collecting node's weight after it. -/
def layerOut (z : EReal) (L : Fin E → Fin n → Prop) [∀ e p, Decidable (L e p)] (gs : Fin E → Fin n) (dis : Fin n → EReal)
    (H : Fin n → Fin b → EReal) (B : Fin b → EReal) : Fin n → Fin b → EReal :=
  fun p q => (z + ∑ e, if L e p then H (gs e) q * dis (gs e) else 0) * dis p + B q

/-- One layer with both end points' weights applied to every term of the sum. -/
def layerIn (z : EReal) (L : Fin E → Fin n → Prop) [∀ e p, Decidable (L e p)] (gs gd : Fin E → Fin n) (dis : Fin n → EReal)
    (H : Fin n → Fin b → EReal) (B : Fin b → EReal) : Fin n → Fin b → EReal :=
  fun p q => (z + ∑ e, if L e p then H (gs e) q * (dis (gs e) * dis (gd e)) else 0) + B q

/-- The two layers are one function when the sum starts from zero, every weight is a nonnegative real, and an edge
    that lands on a node has that node as its destination. -/
theorem layerOut_eq_layerIn (L : Fin E → Fin n → Prop) [∀ e p, Decidable (L e p)] (gs gd : Fin E → Fin n)
    (dis : Fin n → EReal) (hdis : ∀ p, ∃ r : ℝ, 0 ≤ r ∧ dis p = (r : EReal)) (hL : ∀ e p, L e p → gd e = p)
    (H : Fin n → Fin b → EReal) (B : Fin b → EReal) :
    layerOut 0 L gs dis H B = layerIn 0 L gs gd dis H B := by
  funext p q
  obtain ⟨r, hr, hp⟩ := hdis p
  unfold layerOut layerIn
  rw [hp]
  congr 1
  exact agg_scale (fun e => L e p) (fun e => H (gs e) q) (fun e => dis (gs e)) (fun e => dis (gd e)) hr
    (fun e h => by rw [hL e p h, hp])

/-- The whole computation, the weights applied outside the sums: a layer, the larger of its value and `zr`, a second
    layer. -/
def netOut (zr : EReal) (L : Fin E → Fin n → Prop) [∀ e p, Decidable (L e p)] (gs : Fin E → Fin n) (dis : Fin n → EReal)
    (X : Fin n → Fin a → EReal) (W1 : Fin a → Fin b → EReal) (B1 : Fin b → EReal) (W2 : Fin b → Fin 1 → EReal)
    (B2 : Fin 1 → EReal) : Fin n → Fin 1 → EReal :=
  layerOut 0 L gs dis (lin (fun p k => max (layerOut 0 L gs dis (lin X W1) B1 p k) zr) W2) B2

/-- The whole computation, the weights applied inside the sums. -/
def netIn (zr : EReal) (L : Fin E → Fin n → Prop) [∀ e p, Decidable (L e p)] (gs gd : Fin E → Fin n) (dis : Fin n → EReal)
    (X : Fin n → Fin a → EReal) (W1 : Fin a → Fin b → EReal) (B1 : Fin b → EReal) (W2 : Fin b → Fin 1 → EReal)
    (B2 : Fin 1 → EReal) : Fin n → Fin 1 → EReal :=
  layerIn 0 L gs gd dis (lin (fun p k => max (layerIn 0 L gs gd dis (lin X W1) B1 p k) zr) W2) B2

theorem netOut_eq_netIn (zr : EReal) (L : Fin E → Fin n → Prop) [∀ e p, Decidable (L e p)] (gs gd : Fin E → Fin n)
    (dis : Fin n → EReal) (hdis : ∀ p, ∃ r : ℝ, 0 ≤ r ∧ dis p = (r : EReal)) (hL : ∀ e p, L e p → gd e = p)
    (X : Fin n → Fin a → EReal) (W1 : Fin a → Fin b → EReal) (B1 : Fin b → EReal) (W2 : Fin b → Fin 1 → EReal)
    (B2 : Fin 1 → EReal) :
    netOut zr L gs dis X W1 B1 W2 B2 = netIn zr L gs gd dis X W1 B1 W2 B2 := by
  unfold netOut netIn
  rw [layerOut_eq_layerIn L gs gd dis hdis hL, layerOut_eq_layerIn L gs gd dis hdis hL]

end Cert.Gcn

end
-- ==== Proof.Shared.lean ====
/-
  The graph data both programs compute in the same way from the edge list, named once.

  Both programs build the edge list's two index vectors (the given edges followed by one self-loop per node), count the
  edges landing on each node, and take the reciprocal square root of the count where it is positive. What matters of
  all that downstream is: which edges an accumulating scatter by the destination vector drops on node p (`lands`),
  which node's row a gather by the wrapped source / destination vector reads for edge e (`gsrc`, `gdst`), and the
  node weight (`disv`). They are stated over the reference's stages, as functions of the edge array alone.
-/
import proofs.«149689_j18133351924184_2_alg».proof.Proof.RefRead
import proofs.«149689_j18133351924184_2_alg».proof.Proof.Spec

noncomputable section

namespace Cert.Gcn

open Idealize.ShloMosaic Idealize.ShloMosaic.ValueIdx Cert.ReferenceIdeal Cert.ReferenceIdeal.ReadP

/-- The edge array. -/
abbrev EdgeArr := (⟨S2x3200000, .i32⟩ : BufTy).Contents (Elt Ideal)

/-- Edge e is dropped on node p by a scatter along the destination column: the column's e-th entry, read as a signed
    integer, is p. -/
abbrev lands (x1 : EdgeArr) (e : Fin 3300000) (p : Fin 100000) : Prop :=
  (val_main_v9 (F := Ideal) x1 (ix2 e (0 : Fin 1))).toInt = (p.val : ℤ)

/-- The node whose row a gather by the wrapped source column reads for edge e (the entry read signed and clamped
    into the node range). -/
def gsrc (x1 : EdgeArr) (e : Fin 3300000) : Fin 100000 :=
  ⟨min (val_main_v21 (F := Ideal) x1 (ix2 e (0 : Fin 1))).toInt.toNat (100000 - 1), by omega⟩

/-- The node whose row a gather by the wrapped destination column reads for edge e. -/
def gdst (x1 : EdgeArr) (e : Fin 3300000) : Fin 100000 :=
  ⟨min (val_main_v28 (F := Ideal) x1 (ix2 e (0 : Fin 1))).toInt.toNat (100000 - 1), by omega⟩

/-- The node weight: the reciprocal square root of the node's edge count where that is positive, zero elsewhere. -/
def disv (x1 : EdgeArr) (p : Fin 100000) : EReal := val_main_v14 (F := Ideal) x1 (ix1 p)

end Cert.Gcn

end
-- ==== Proof.LibScatterRows.lean ====
/-
  An accumulating scatter of rows, read at an index, on the exact extended reals.

  Updates `u` of shape [E, D] are added into an [n, D] array `x`, update row `e` going to the row of `x` that the e-th
  scatter index names (read as a signed integer, not clamped; a row outside `0 ≤ · < n` is dropped). The entry of the
  result at row `p` and column `k` is then

      x (p, k) + ∑ over the update rows e whose index is p, of u (e, k):

  only the update's own column `k` can land in column `k`, so the filter over all [E, D] update positions collapses to
  a filter over the E update rows. The one-axis form adds scalar updates [E] into a vector [n] in the same way.
  Both are general in the extents, in the index width and in the float format.
-/
import Idealize.ShloMosaic.Lib.ValueIdx
import Idealize.ShloMosaic.PureOps.Ideal

noncomputable section

namespace Cert.LibScatterRows

open Idealize.ShloMosaic Idealize.ShloMosaic.ValueIdx

variable {n E D w : ℕ}

/-! ## Rows into a matrix -/

/-- The dimension numbers of a row scatter: the update's axis 1 is the window (the operand's axis 1), the operand's
    axis 0 is the scattered one, and each scatter index is one scalar, on the index array's axis 1. -/
abbrev rowsDims (n E D : ℕ) (wf : ScatterDims.WF (⟨2, ![n, D]⟩ : Shape) ⟨2, ![E, 1]⟩ ⟨2, ![E, D]⟩ [1] [0] [0] 1) :
    ScatterDims ⟨2, ![n, D]⟩ ⟨2, ![E, 1]⟩ ⟨2, ![E, D]⟩ := ⟨[1], [0], [0], 1, wf⟩

/-- On the scattered axis the window of update position (e, k) starts at the e-th scatter index, read signed. -/
theorem rows_start_zero (wf) (idx : IVec ⟨2, ![E, 1]⟩ w) (e : Fin E) (k : Fin D) :
    (rowsDims n E D wf).start (ix2 e k) idx 0 = (idx (ix2 e 0)).toInt := by
  unfold ScatterDims.start
  rw [dif_pos (List.mem_singleton.mpr rfl)]
  congr 2
  funext b
  match b with
  | ⟨0, _⟩ =>
    unfold ScatterDims.siIdx
    rw [dif_neg (by show ¬ (0 : ℕ) = 1; omega)]
    rfl
  | ⟨1, _⟩ =>
    unfold ScatterDims.siIdx
    rw [dif_pos (by show (1 : ℕ) = 1; rfl)]
    rfl

/-- On the window axis the start is zero: no scatter index names it. -/
theorem rows_start_one (wf) (idx : IVec ⟨2, ![E, 1]⟩ w) (e : Fin E) (k : Fin D) :
    (rowsDims n E D wf).start (ix2 e k) idx 1 = 0 := by
  unfold ScatterDims.start
  rw [dif_neg (by show (1 : Fin 2) ∉ ([0] : List (Fin 2)); decide)]

/-- The scattered axis carries no window coordinate. -/
theorem rows_window_zero (wf) (e : Fin E) (k : Fin D) : (rowsDims n E D wf).window (ix2 e k) 0 = 0 := by
  unfold ScatterDims.window
  rw [dif_neg (by show (0 : Fin 2) ∉ ([1] : List (Fin 2)); decide)]

/-- The window axis carries the update's column. -/
theorem rows_window_one (wf) (e : Fin E) (k : Fin D) : (rowsDims n E D wf).window (ix2 e k) 1 = k.val := by
  unfold ScatterDims.window
  rw [dif_pos (by show (1 : Fin 2) ∈ ([1] : List (Fin 2)); decide)]
  rfl

/-- Update position (e, k') lands on entry (p, k) exactly when the e-th scatter index is p and the columns agree. -/
theorem rows_resultIdx_iff (wf) (idx : IVec ⟨2, ![E, 1]⟩ w) (e : Fin E) (k' : Fin D) (p : Fin n) (k : Fin D) :
    (rowsDims n E D wf).resultIdx? (ix2 e k') idx = some (ix2 p k) ↔ ((idx (ix2 e 0)).toInt = (p.val : ℤ) ∧ k' = k) := by
  have hs0 := rows_start_zero (n := n) wf idx e k'
  have hs1 := rows_start_one (n := n) wf idx e k'
  have hw0 := rows_window_zero (n := n) wf e k'
  have hw1 := rows_window_one (n := n) wf e k'
  have hp := p.isLt
  have hk' := k'.isLt
  unfold ScatterDims.resultIdx?
  split
  · rename_i h
    rw [Option.some.injEq]
    constructor
    · intro hf
      have h0 : ((rowsDims n E D wf).start (ix2 e k') idx 0 + ((rowsDims n E D wf).window (ix2 e k') 0 : ℕ)).toNat = p.val :=
        congrArg (fun f : (⟨2, ![n, D]⟩ : Shape).Idx => (f 0).val) hf
      have h1 : ((rowsDims n E D wf).start (ix2 e k') idx 1 + ((rowsDims n E D wf).window (ix2 e k') 1 : ℕ)).toNat = k.val :=
        congrArg (fun f : (⟨2, ![n, D]⟩ : Shape).Idx => (f 1).val) hf
      have g0 := (h 0).1
      rw [hs0, hw0] at h0 g0
      rw [hs1, hw1] at h1
      exact ⟨by omega, Fin.ext (by omega)⟩
    · rintro ⟨hc, rfl⟩
      funext a
      match a with
      | ⟨0, _⟩ =>
        apply Fin.ext
        show ((rowsDims n E D wf).start (ix2 e k') idx 0 + ((rowsDims n E D wf).window (ix2 e k') 0 : ℕ)).toNat = p.val
        rw [hs0, hw0, hc]; omega
      | ⟨1, _⟩ =>
        apply Fin.ext
        show ((rowsDims n E D wf).start (ix2 e k') idx 1 + ((rowsDims n E D wf).window (ix2 e k') 1 : ℕ)).toNat = k'.val
        rw [hs1, hw1]; omega
  · rename_i h
    constructor
    · intro hf; exact absurd hf (by simp)
    · rintro ⟨hc, rfl⟩
      exfalso
      apply h
      intro a
      match a with
      | ⟨0, _⟩ =>
        show 0 ≤ (rowsDims n E D wf).start (ix2 e k') idx 0 + ((rowsDims n E D wf).window (ix2 e k') 0 : ℕ)
          ∧ (rowsDims n E D wf).start (ix2 e k') idx 0 + ((rowsDims n E D wf).window (ix2 e k') 0 : ℕ) < (n : ℤ)
        rw [hs0, hw0, hc]; omega
      | ⟨1, _⟩ =>
        show 0 ≤ (rowsDims n E D wf).start (ix2 e k') idx 1 + ((rowsDims n E D wf).window (ix2 e k') 1 : ℕ)
          ∧ (rowsDims n E D wf).start (ix2 e k') idx 1 + ((rowsDims n E D wf).window (ix2 e k') 1 : ℕ) < (D : ℤ)
        rw [hs1, hw1]; omega

/-- THE ROW SCATTER AT AN ENTRY: the operand's entry plus the sum, over the update rows whose scatter index is the
    entry's row, of the update at that row and the entry's column. -/
theorem scatterAdd_rows_apply {φ : FTy} (wf) (x : FVec Ideal ⟨2, ![n, D]⟩ φ) (idx : IVec ⟨2, ![E, 1]⟩ w)
    (upd : FVec Ideal ⟨2, ![E, D]⟩ φ) (p : Fin n) (k : Fin D) :
    Host.scatterAdd (F := Ideal) (rowsDims n E D wf) x idx upd (ix2 p k)
      = x (ix2 p k) + ∑ e : Fin E, if (idx (ix2 e 0)).toInt = (p.val : ℤ) then upd (ix2 e k) else 0 := by
  show x (ix2 p k) + ∑ j ∈ Finset.univ.filter (fun j => (rowsDims n E D wf).resultIdx? j idx = some (ix2 p k)), upd j = _
  congr 1
  rw [Finset.sum_filter, sum_idx2]
  refine Finset.sum_congr rfl fun e _ => ?_
  simp only [rows_resultIdx_iff]
  by_cases hc : (idx (ix2 e 0)).toInt = (p.val : ℤ)
  · simp only [hc, true_and, if_true]
    rw [Finset.sum_ite_eq' Finset.univ k (fun k' => upd (ix2 e k'))]
    simp
  · simp only [hc, false_and, if_false]
    exact Finset.sum_const_zero

/-! ## Scalars into a vector -/

/-- The dimension numbers of a scalar scatter: the updates have no window axis, the operand's one axis is the
    scattered one, and each scatter index is one scalar, on the index array's axis 1. -/
abbrev scalarsDims (n E : ℕ) (wf : ScatterDims.WF (⟨1, ![n]⟩ : Shape) ⟨2, ![E, 1]⟩ ⟨1, ![E]⟩ [] [0] [0] 1) :
    ScatterDims ⟨1, ![n]⟩ ⟨2, ![E, 1]⟩ ⟨1, ![E]⟩ := ⟨[], [0], [0], 1, wf⟩

/-- A rank-1 index set is its coordinate range, so a sum over it is the sum over the coordinate. -/
theorem sum_idx1 {M : Type*} [AddCommMonoid M] (f : (⟨1, ![E]⟩ : Shape).Idx → M) : ∑ i, f i = ∑ e : Fin E, f (ix1 e) := by
  refine (Equiv.sum_comp (⟨ix1, fun i => i 0, fun _ => rfl, fun i => (eq_ix1 i).symm⟩ : Fin E ≃ (⟨1, ![E]⟩ : Shape).Idx) f).symm

/-- Update e starts at the e-th scatter index, read signed. -/
theorem scalars_start (wf) (idx : IVec ⟨2, ![E, 1]⟩ w) (e : Fin E) :
    (scalarsDims n E wf).start (ix1 e) idx 0 = (idx (ix2 e 0)).toInt := by
  unfold ScatterDims.start
  rw [dif_pos (List.mem_singleton.mpr rfl)]
  congr 2
  funext b
  match b with
  | ⟨0, _⟩ =>
    unfold ScatterDims.siIdx
    rw [dif_neg (by show ¬ (0 : ℕ) = 1; omega)]
    rfl
  | ⟨1, _⟩ =>
    unfold ScatterDims.siIdx
    rw [dif_pos (by show (1 : ℕ) = 1; rfl)]
    rfl

/-- There is no window coordinate. -/
theorem scalars_window (wf) (e : Fin E) : (scalarsDims n E wf).window (ix1 e) 0 = 0 := by
  unfold ScatterDims.window
  rw [dif_neg (by show (0 : Fin 1) ∉ ([] : List (Fin 1)); decide)]

/-- Update e lands on entry p exactly when the e-th scatter index is p. -/
theorem scalars_resultIdx_iff (wf) (idx : IVec ⟨2, ![E, 1]⟩ w) (e : Fin E) (p : Fin n) :
    (scalarsDims n E wf).resultIdx? (ix1 e) idx = some (ix1 p) ↔ (idx (ix2 e 0)).toInt = (p.val : ℤ) := by
  have hs0 := scalars_start (n := n) wf idx e
  have hw0 := scalars_window (n := n) wf e
  have hp := p.isLt
  unfold ScatterDims.resultIdx?
  split
  · rename_i h
    rw [Option.some.injEq]
    constructor
    · intro hf
      have h0 : ((scalarsDims n E wf).start (ix1 e) idx 0 + ((scalarsDims n E wf).window (ix1 e) 0 : ℕ)).toNat = p.val :=
        congrArg (fun f : (⟨1, ![n]⟩ : Shape).Idx => (f 0).val) hf
      have g0 := (h 0).1
      rw [hs0, hw0] at h0 g0
      omega
    · intro hc
      funext a
      match a with
      | ⟨0, _⟩ =>
        apply Fin.ext
        show ((scalarsDims n E wf).start (ix1 e) idx 0 + ((scalarsDims n E wf).window (ix1 e) 0 : ℕ)).toNat = p.val
        rw [hs0, hw0, hc]; omega
  · rename_i h
    constructor
    · intro hf; exact absurd hf (by simp)
    · intro hc
      exfalso
      apply h
      intro a
      match a with
      | ⟨0, _⟩ =>
        show 0 ≤ (scalarsDims n E wf).start (ix1 e) idx 0 + ((scalarsDims n E wf).window (ix1 e) 0 : ℕ)
          ∧ (scalarsDims n E wf).start (ix1 e) idx 0 + ((scalarsDims n E wf).window (ix1 e) 0 : ℕ) < (n : ℤ)
        rw [hs0, hw0, hc]; omega

/-- THE SCALAR SCATTER AT AN ENTRY: the operand's entry plus the sum of the updates whose scatter index is the entry. -/
theorem scatterAdd_scalars_apply {φ : FTy} (wf) (x : FVec Ideal ⟨1, ![n]⟩ φ) (idx : IVec ⟨2, ![E, 1]⟩ w)
    (upd : FVec Ideal ⟨1, ![E]⟩ φ) (p : Fin n) :
    Host.scatterAdd (F := Ideal) (scalarsDims n E wf) x idx upd (ix1 p)
      = x (ix1 p) + ∑ e : Fin E, if (idx (ix2 e 0)).toInt = (p.val : ℤ) then upd (ix1 e) else 0 := by
  show x (ix1 p) + ∑ j ∈ Finset.univ.filter (fun j => (scalarsDims n E wf).resultIdx? j idx = some (ix1 p)), upd j = _
  congr 1
  rw [Finset.sum_filter, sum_idx1]
  refine Finset.sum_congr rfl fun e _ => ?_
  simp only [scalars_resultIdx_iff]

end Cert.LibScatterRows

end
-- ==== Proof.LibERealFinite.lean ====
/-
  Extended reals that are real numbers: the predicate, its closure under the arithmetic the
  normalisation uses, and the two operations with corners (the quotient by a nonzero real and the
  reciprocal square root of a positive real) at real arguments.
-/
import Idealize.ShloMosaic.PureOps.Ideal
import Idealize.ShloMosaic.PureOps.Ideal.Laws
import Idealize.ShloMosaic.Lib.ReduceAll

noncomputable section

namespace Cert.Lib

open Idealize.ShloMosaic

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

theorem IsReal.ne_top {x : EReal} (h : IsReal x) : x ≠ ⊤ := ((isReal_iff x).mp h).1

theorem IsReal.ne_bot {x : EReal} (h : IsReal x) : x ≠ ⊥ := ((isReal_iff x).mp h).2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- The larger of two reals, as extended reals, is the larger real. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx
  obtain ⟨b, rfl⟩ := hy
  exact ⟨_, coe_max a b⟩

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A row of a matrix product of real matrices is real. -/
theorem IsReal.dot {ι : Type*} (s : Finset ι) (x w : ι → EReal) (hx : ∀ k, IsReal (x k)) (hw : ∀ k, IsReal (w k)) :
    IsReal (∑ k ∈ s, x k * w k) :=
  IsReal.sum s _ fun k _ => (hx k).mul (hw k)

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul, mul_one_div]

theorem IsReal.div_coe {x : EReal} (hx : IsReal x) {c : ℝ} (hc : c ≠ 0) : IsReal (Ideal.div x (c : EReal)) := by
  obtain ⟨a, rfl⟩ := hx
  exact ⟨_, div_coe_coe a hc⟩

/-- The reciprocal square root of a positive real is the real one. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_pos {r : ℝ} (h : 0 < r) : IsReal (Ideal.rsqrt (r : EReal)) := ⟨_, rsqrt_coe_pos h⟩

/-- `(1 + ε) · x + z` of reals is real. -/
theorem IsReal.affine {a x z : EReal} (ha : IsReal a) (hx : IsReal x) (hz : IsReal z) : IsReal ((1 + a) * x + z) :=
  ((isReal_one.add ha).mul hx).add hz

/-- A gather of real entries has real entries: each one is an entry of the operand. -/
theorem isReal_gather {s si t : Shape} {w : Nat} (d : GatherDims s si t) (x : s.Idx → EReal) (idx : IVec si w)
    (hx : ∀ i, IsReal (x i)) (j : t.Idx) : IsReal (Host.gather d x idx j) :=
  hx _

/-- A scatter-add, on the extended reals, of real updates into real entries has real entries: each one is an
    entry of the operand plus a finite sum of updates. -/
theorem isReal_scatterAdd {φ : FTy} {s si su : Shape} {w : Nat} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) := by
  show IsReal (x i + ∑ j ∈ _, upd j)
  exact (hx i).add (IsReal.sum _ _ fun j _ => hu j)

/-- The f32 pattern `0x7F800000` denotes +∞. -/
theorem ofBits_inf_f32 : Ideal.ofBits .f32 0x7F800000#32 = ⊤ := by
  simp [Ideal.ofBits, Ideal.ieee]

/-- An extended real whose absolute value compares below +∞ is a real. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change BitVec.ofBool (decide (max x (-x) < Ideal.ofBits .f32 0x7F800000#32)) = 1#1 at h
  rw [ofBits_inf_f32] at h
  induction x using EReal.rec with
  | bot => simp at h
  | coe r => exact ⟨r, rfl⟩
  | top => simp at h

/-- `all (|x| < +∞)` over a whole array (the reduction by `and` of the comparison against the broadcast pattern of
    +∞ is 1) says every entry is a real. -/
theorem isReal_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] bc (constant ⟨0, ![]⟩ .f32 0x7F800000#32)))
      (constantI ⟨0, ![]⟩ 1 1#1) h hu j = 1#1) (i : s.Idx) : IsReal (x i) := by
  haveI : Subsingleton (⟨0, ![]⟩ : Shape).Idx := ⟨fun a b => funext fun d => d.elim0⟩
  exact isReal_of_abs_lt_inf (x i) (Host.reduce_andi_all _ _ h hu j e i)

/-- The same for a scalar (no broadcast of the pattern). -/
theorem isReal_of_all_finite₀ {axes : List (Fin (⟨0, ![]⟩ : Shape).rank)} (x : FVec Ideal ⟨0, ![]⟩ .f32)
    (h : (⟨0, ![]⟩ : Shape).ReducesTo axes ⟨0, ![]⟩) (hu : 0 < (⟨0, ![]⟩ : Shape).numel) (j : (⟨0, ![]⟩ : Shape).Idx)
    (e : Host.reduce IntOp.andi (cmpf .olt (Host.absf x) (constant ⟨0, ![]⟩ .f32 0x7F800000#32))
      (constantI ⟨0, ![]⟩ 1 1#1) h hu j = 1#1) (i : (⟨0, ![]⟩ : Shape).Idx) : IsReal (x i) := by
  haveI : Subsingleton (⟨0, ![]⟩ : Shape).Idx := ⟨fun a b => funext fun d => d.elim0⟩
  exact isReal_of_abs_lt_inf (x i) (Host.reduce_andi_all _ _ h hu j e i)

end Cert.Lib

end
-- ==== Proof.Facts.lean ====
/-
  Two facts about the graph data, both from the edge array alone.

  (1) The node weight is a nonnegative real number. The count at a node is zero plus a sum of ones over the edges
  landing there, a natural number; where it is positive the weight is the reciprocal of its square root, a positive
  real, and elsewhere the weight is zero. So the weight never meets a corner of the extended reals.

  (2) An edge that an accumulating scatter by the raw destination column drops on node p has p as the node its
  wrapped, clamped destination names: the raw entry read signed IS p, which is neither negative (so the wrap leaves it
  alone) nor beyond the last node (so the clamp does).
-/
import proofs.«149689_j18133351924184_2_alg».proof.Proof.Shared
import proofs.«149689_j18133351924184_2_alg».proof.Proof.LibScatterRows
import proofs.«149689_j18133351924184_2_alg».proof.Proof.LibERealFinite
import Idealize.ShloMosaic.PureOps.Ideal.Laws

noncomputable section

namespace Cert.Gcn

open Idealize.ShloMosaic Idealize.ShloMosaic.ValueIdx Cert.ReferenceIdeal Cert.ReferenceIdeal.ReadP

/-- The pattern of the float one. -/
theorem ofBits_one_f32 : Ideal.ofBits .f32 0x3F800000#32 = 1 := by
  simp [Ideal.ofBits, Ideal.ieee, -EReal.coe_mul]; norm_num

/-- A column position's one index into the vector it was made from. -/
theorem idx_col (e : Fin 3300000) : idx_main_v9 (ix2 e (0 : Fin 1)) = ix1 e := by
  funext a; match a with | ⟨0, _⟩ => rfl

/-- The raw destination column at an edge is the destination vector there. -/
theorem dstcol_apply (x1 : EdgeArr) (e : Fin 3300000) :
    val_main_v9 (F := Ideal) x1 (ix2 e (0 : Fin 1)) = val_main_v6 (F := Ideal) x1 (ix1 e) := by
  rw [val_main_v9_apply, idx_col]

/-- The count's scatter record is the scalar-scatter one. -/
theorem scatterDeg_eq : scatter_S100000_S3300000x1_S3300000_n_0_0_1
    = Cert.LibScatterRows.scalarsDims 100000 3300000 Facts₀.scatter_S100000_S3300000x1_S3300000_n_0_0_1_wf := rfl

/-- The count at a node is a nonnegative real: the number of edges landing there. -/
theorem deg_real (x1 : EdgeArr) (p : Fin 100000) :
    ∃ r : ℝ, 0 ≤ r ∧ val_main_v10 (F := Ideal) x1 (ix1 p) = (r : EReal) := by
  refine ⟨∑ e : Fin 3300000, if lands x1 e p then (1 : ℝ) else 0,
    Finset.sum_nonneg fun e _ => by split_ifs <;> norm_num, ?_⟩
  unfold val_main_v10
  rw [scatterDeg_eq, Cert.LibScatterRows.scatterAdd_scalars_apply, val_main_v8_apply, val_main_cst_0_apply,
    Ideal.ofBits_def, Ideal.ofBits_zero_f32, zero_add, ← Cert.Lib.coe_sum]
  refine Finset.sum_congr rfl fun e _ => ?_
  rw [val_main_v7_apply, val_main_cst_apply, Ideal.ofBits_def, ofBits_one_f32]
  by_cases h : lands x1 e p
  · rw [if_pos h, if_pos h]; rfl
  · rw [if_neg h, if_neg h]; rfl

/-- THE NODE WEIGHT IS A NONNEGATIVE REAL. -/
theorem disv_real (x1 : EdgeArr) (p : Fin 100000) : ∃ r : ℝ, 0 ≤ r ∧ disv x1 p = (r : EReal) := by
  obtain ⟨d, hd, he⟩ := deg_real x1 p
  unfold disv
  rw [val_main_v14_apply, val_main_v12_apply, val_main_v13_apply, val_main_v11_apply, val_main_cst_1_apply,
    val_main_call0_v1_apply, val_main_call0_v0_apply, val_main_cst_2_apply, he, Ideal.ofBits_def, Ideal.ofBits_zero_f32,
    Ideal.hostUnary_rsqrt_def]
  have hcmp : FloatOps.cmpf (F := Ideal) (φ := .f32) .ogt (d : EReal) (0 : EReal)
      = BitVec.ofBool (decide ((0 : EReal) < (d : EReal))) := rfl
  rw [hcmp]
  unfold Scalar.select
  by_cases hpos : 0 < d
  · refine ⟨(Real.sqrt d)⁻¹, inv_nonneg.mpr (Real.sqrt_nonneg d), ?_⟩
    have h1 : (0 : EReal) < (d : EReal) := by exact_mod_cast hpos
    rw [decide_eq_true h1, if_pos (by decide : BitVec.ofBool true = 1), Cert.Lib.rsqrt_coe_pos hpos]
  · refine ⟨0, le_refl 0, ?_⟩
    have h1 : ¬ (0 : EReal) < (d : EReal) := by
      intro h; exact hpos (by exact_mod_cast h)
    rw [decide_eq_false h1, if_neg (by decide : ¬ BitVec.ofBool false = 1)]
    rfl

/-- AN EDGE THAT LANDS ON p HAS p AS ITS WRAPPED, CLAMPED DESTINATION. -/
theorem gdst_of_lands (x1 : EdgeArr) (e : Fin 3300000) (p : Fin 100000) (h : lands x1 e p) : gdst x1 e = p := by
  have hp := p.isLt
  unfold lands at h
  rw [dstcol_apply] at h
  apply Fin.ext
  unfold gdst
  show min (val_main_v28 (F := Ideal) x1 (ix2 e (0 : Fin 1))).toInt.toNat (100000 - 1) = p.val
  have hw : val_main_v28 (F := Ideal) x1 (ix2 e (0 : Fin 1)) = val_main_v6 (F := Ideal) x1 (ix1 e) := by
    rw [val_main_v28_apply, show idx_main_v28 (ix2 e (0 : Fin 1)) = ix1 e from idx_col e, val_main_v27_apply,
      val_main_v24_apply, val_main_v23_apply, val_main_c_4_apply]
    generalize val_main_v6 (F := Ideal) x1 (ix1 e) = d at h ⊢
    have hs : d.slt 0#32 = false := by
      rw [BitVec.slt_eq_decide]
      exact decide_eq_false (by rw [h]; simp)
    show Scalar.select (BitVec.ofBool (d.slt 0#32)) _ d = d
    rw [hs]
    rfl
  rw [hw, h]
  omega

end Cert.Gcn

end
-- ==== Proof.LibGatherRows.lean ====
/-
  A gather of rows along axis 0, read at an index.

  An [n, D] array `x` is gathered by an [E, 1] column of start indices into an [E, D] array: row `e` of the result is
  the row of `x` that the e-th start index names. The index is read as a signed integer and clamped into the
  operand, so that the one-row slice fits: a negative index reads row 0, an index beyond the last row reads row
  n − 1. The entry of the result at row `e` and column `k` is then

      x (min (idx (e, 0)).toInt.toNat (n − 1), k).

  The one-axis form gathers scalars of a vector [n] into a vector [E] in the same way. Both are general in the
  extents, in the index width and in the element type.
-/
import Idealize.ShloMosaic.Lib.ValueIdx

namespace Cert.LibGatherRows

open Idealize.ShloMosaic Idealize.ShloMosaic.ValueIdx

variable {n E D w : ℕ} {α : Type}

/-! ## Rows of a matrix -/

/-- The dimension numbers of a row gather: the result's axis 1 is the offset axis (the operand's axis 1, taken
    whole), the operand's axis 0 is collapsed (a slice of one row), and each start index is one scalar, on the
    index array's axis 1. -/
abbrev rowsDims (n E D : ℕ)
    (wf : GatherDims.WF (⟨2, ![n, D]⟩ : Shape) ⟨2, ![E, 1]⟩ ⟨2, ![E, D]⟩ [1] [0] [] [0] [] 1 ![1, D]) :
    GatherDims ⟨2, ![n, D]⟩ ⟨2, ![E, 1]⟩ ⟨2, ![E, D]⟩ := ⟨[1], [0], [], [], [0], 1, ![1, D], wf⟩

/-- THE ROW GATHER AT AN ENTRY: the operand at the row the e-th start index names (read signed, clamped into
    `[0, n − 1]`) and at the entry's own column. -/
theorem gather_rows_apply (hn : 0 < n) (wf) (x : (⟨2, ![n, D]⟩ : Shape).Idx → α) (idx : IVec ⟨2, ![E, 1]⟩ w)
    (e : Fin E) (k : Fin D) :
    Host.gather (rowsDims n E D wf) x idx (ix2 e k)
      = x (ix2 ⟨min (idx (ix2 e (0 : Fin 1))).toInt.toNat (n - 1), by omega⟩ k) := by
  unfold Host.gather
  congr 1
  funext a
  refine Fin.ext ?_
  match a with
  | ⟨0, _⟩ =>
    show (rowsDims n E D wf).start (ix2 e k) idx 0 + (rowsDims n E D wf).batchCoord (ix2 e k) 0
      + (rowsDims n E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n E D wf).startIndexMap from List.mem_singleton.mpr rfl)]
    have hsi : (rowsDims n E D wf).siIdx (ix2 e k) ⟨List.idxOf (0 : Fin 2) (rowsDims n E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims n E D wf).start (ix2 e k) idx 1 + (rowsDims n E D wf).batchCoord (ix2 e k) 1
      + (rowsDims n E D wf).offCoord (ix2 e k) 1 = k.val
    rw [GatherDims.batchCoord_eq_zero _ _ _ List.not_mem_nil]
    unfold GatherDims.start
    rw [dif_neg (by show (1 : Fin 2) ∉ ([0] : List (Fin 2)); decide)]
    unfold GatherDims.offCoord
    rw [dif_pos ((GatherDims.mem_sKept _ _).mpr ⟨by show (1 : Fin 2) ∉ ([0] : List (Fin 2)); decide, List.not_mem_nil⟩)]
    simp only [Nat.add_zero, Nat.zero_add]
    rfl

/-! ## Scalars of a vector -/

/-- The dimension numbers of a scalar gather: the result has no offset axis, the operand's one axis is collapsed,
    and each start index is one scalar, on the index array's axis 1. -/
abbrev scalarsDims (n E : ℕ)
    (wf : GatherDims.WF (⟨1, ![n]⟩ : Shape) ⟨2, ![E, 1]⟩ ⟨1, ![E]⟩ [] [0] [] [0] [] 1 ![1]) :
    GatherDims ⟨1, ![n]⟩ ⟨2, ![E, 1]⟩ ⟨1, ![E]⟩ := ⟨[], [0], [], [], [0], 1, ![1], wf⟩

/-- THE SCALAR GATHER AT AN ENTRY: the operand at the position the e-th start index names (read signed, clamped
    into `[0, n − 1]`). -/
theorem gather_scalars_apply (hn : 0 < n) (wf) (x : (⟨1, ![n]⟩ : Shape).Idx → α) (idx : IVec ⟨2, ![E, 1]⟩ w)
    (e : Fin E) :
    Host.gather (scalarsDims n E wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (scalarsDims n E wf).start (ix1 e) idx 0 + (scalarsDims n E wf).batchCoord (ix1 e) 0
    + (scalarsDims n E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (scalarsDims n E wf).startIndexMap from List.mem_singleton.mpr rfl)]
  have hsi : (scalarsDims n E wf).siIdx (ix1 e) ⟨List.idxOf (0 : Fin 1) (scalarsDims n E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherRows
-- ==== Proof.RefValue.lean ====
/-
  The reference's value, read entry by entry.

  The reference computes two rounds of a degree-normalised neighbourhood sum. Each round multiplies the node
  features by a weight matrix, reads for every edge the row of its source node, scales that row by the product of
  the two end points' node weights, adds the scaled rows into the row of the node the edge lands on, and adds a
  bias; between the rounds every entry is replaced by the larger of itself and zero. Read at one entry of the
  result this is the function `Cert.Gcn.netIn`, with the sums starting from zero.

  The proof reads each stage at an entry given by coordinates: a gather of rows reads the row its (clamped) start
  index names, an accumulating scatter of rows adds, into an entry, the updates of the rows whose scatter index is
  the entry's row, a matrix product is the sum over the shared axis, and the broadcasts only rename coordinates.
-/
import proofs.«149689_j18133351924184_2_alg».proof.Proof.Shared
import proofs.«149689_j18133351924184_2_alg».proof.Proof.LibScatterRows
import proofs.«149689_j18133351924184_2_alg».proof.Proof.LibGatherRows
import Idealize.ShloMosaic.Lib.ValueLayout
import Idealize.ShloMosaic.PureOps.Ideal.Laws

noncomputable section

namespace Cert.ReferenceIdeal.RefValue

open Cert.ReferenceIdeal Cert.ReferenceIdeal.ReadP Cert.Gcn Idealize.ShloMosaic Idealize.ShloMosaic.ValueIdx

/-! ## The program's dimension numbers are the row and scalar forms -/

/-- The gather of node weights is a gather of scalars of a vector by a column of start indices. -/
theorem gatherScalars_eq :
    gather_S100000_S3300000x1_S3300000_n_0_n_n_0_1_1
      = LibGatherRows.scalarsDims 100000 3300000 Facts₀.gather_S100000_S3300000x1_S3300000_n_0_n_n_0_1_1_wf := rfl

/-- The first round's gather of feature rows is a gather of rows of sixteen entries. -/
theorem gatherRows16_eq :
    gather_S100000x16_S3300000x1_S3300000x16_1_0_n_n_0_1_116
      = LibGatherRows.rowsDims 100000 3300000 16 Facts₀.gather_S100000x16_S3300000x1_S3300000x16_1_0_n_n_0_1_116_wf := rfl

/-- The second round's gather of feature rows is a gather of rows of one entry. -/
theorem gatherRows1_eq :
    gather_S100000x1_S3300000x1_S3300000x1_1_0_n_n_0_1_11
      = LibGatherRows.rowsDims 100000 3300000 1 Facts₀.gather_S100000x1_S3300000x1_S3300000x1_1_0_n_n_0_1_11_wf := rfl

/-- The first round's scatter is an accumulating scatter of rows of sixteen entries. -/
theorem scatterRows16_eq :
    scatter_S100000x16_S3300000x1_S3300000x16_1_0_0_1
      = LibScatterRows.rowsDims 100000 3300000 16 Facts₀.scatter_S100000x16_S3300000x1_S3300000x16_1_0_0_1_wf := rfl

/-- The second round's scatter is an accumulating scatter of rows of one entry. -/
theorem scatterRows1_eq :
    scatter_S100000x1_S3300000x1_S3300000x1_1_0_0_1
      = LibScatterRows.rowsDims 100000 3300000 1 Facts₀.scatter_S100000x1_S3300000x1_S3300000x1_1_0_0_1_wf := rfl

/-! ## Stages that are one term under several names -/

/-- The wrapped source column is built three more times from the same operations. -/
theorem v36_eq (x1 : EdgeArr) : val_main_v36 (F := Ideal) x1 = val_main_v21 x1 := rfl
theorem v54_eq (x1 : EdgeArr) : val_main_v54 (F := Ideal) x1 = val_main_v21 x1 := rfl
theorem v69_eq (x1 : EdgeArr) : val_main_v69 (F := Ideal) x1 = val_main_v21 x1 := rfl

/-- The wrapped destination column is built once more. -/
theorem v61_eq (x1 : EdgeArr) : val_main_v61 (F := Ideal) x1 = val_main_v28 x1 := rfl

/-- The raw destination column is built twice more. -/
theorem v42_eq (x1 : EdgeArr) : val_main_v42 (F := Ideal) x1 = val_main_v9 x1 := rfl
theorem v74_eq (x1 : EdgeArr) : val_main_v74 (F := Ideal) x1 = val_main_v9 x1 := rfl

/-! ## Coordinates through the broadcasts -/

/-- A vector broadcast to a one-column matrix reads, at row e, the vector's entry e. -/
theorem col_idx (e : Fin 3300000) (u : Fin 1) : idx_main_v38 (ix2 e u) = ix1 e := by
  funext a; match a with | ⟨0, _⟩ => rfl

/-- A one-column matrix broadcast along sixteen columns reads, at (e, k), the column's entry e. -/
theorem idx_row16 (e : Fin 3300000) (k : Fin 16) : idx_main_v39 (ix2 e k) = ix2 e (0 : Fin 1) := by
  funext a; match a with | ⟨0, _⟩ => rfl | ⟨1, _⟩ => rfl

/-- The first bias, broadcast over the nodes, reads at (p, k) the bias's entry k. -/
theorem idx_bias16 (p : Fin 100000) (k : Fin 16) : idx_main_v44 (idx_main_v45 (ix2 p k)) = ix1 k := by
  funext a; match a with | ⟨0, _⟩ => rfl

/-! ## The per-edge weight -/

/-- The source end's node weight of edge e. -/
theorem v22_at (x1 : EdgeArr) (e : Fin 3300000) :
    val_main_v22 (F := Ideal) x1 (ix1 e) = disv x1 (gsrc x1 e) := by
  unfold val_main_v22 disv gsrc
  rw [gatherScalars_eq]
  exact LibGatherRows.gather_scalars_apply (by omega) _ (val_main_v14 x1) (val_main_v21 x1) e

/-- The destination end's node weight of edge e. -/
theorem v29_at (x1 : EdgeArr) (e : Fin 3300000) :
    val_main_v29 (F := Ideal) x1 (ix1 e) = disv x1 (gdst x1 e) := by
  unfold val_main_v29 disv gdst
  rw [gatherScalars_eq]
  exact LibGatherRows.gather_scalars_apply (by omega) _ (val_main_v14 x1) (val_main_v28 x1) e

/-- The weight of edge e: the product of its two end points' node weights. -/
theorem v30_at (x1 : EdgeArr) (e : Fin 3300000) :
    val_main_v30 (F := Ideal) x1 (ix1 e) = disv x1 (gsrc x1 e) * disv x1 (gdst x1 e) := by
  rw [val_main_v30_apply, v22_at, v29_at]
  rfl

/-! ## The first round -/

/-- The features times the first weight matrix, at (p, k). -/
theorem v15_at (x0 : (⟨S100000x3, .f32⟩ : BufTy).Contents (Elt Ideal)) (x2 : (⟨S3x16, .f32⟩ : BufTy).Contents (Elt Ideal))
    (p : Fin 100000) (k : Fin 16) :
    val_main_v15 (F := Ideal) x0 x2 (ix2 p k) = lin (fun p j => x0 (ix2 p j)) (fun j k => x2 (ix2 j k)) p k := by
  rw [val_main_v15_apply]
  show _ = ∑ j : Fin 3, x0 (ix2 p j) * x2 (ix2 j k)
  refine Finset.sum_congr rfl fun j _ => ?_
  have hl : lidx_main_v15 (ix2 p k) j = ix2 p j := by
    funext a; match a with | ⟨0, _⟩ => rfl | ⟨1, _⟩ => rfl
  have hr : ridx_main_v15 (ix2 p k) j = ix2 j k := by
    funext a; match a with | ⟨0, _⟩ => rfl | ⟨1, _⟩ => rfl
  rw [hl, hr]

/-- The row gathered for edge e is the row of its source node. -/
theorem v37_at (x0 : (⟨S100000x3, .f32⟩ : BufTy).Contents (Elt Ideal)) (x1 : EdgeArr)
    (x2 : (⟨S3x16, .f32⟩ : BufTy).Contents (Elt Ideal)) (e : Fin 3300000) (k : Fin 16) :
    val_main_v37 (F := Ideal) x0 x1 x2 (ix2 e k) = val_main_v15 x0 x2 (ix2 (gsrc x1 e) k) := by
  unfold val_main_v37 gsrc
  rw [gatherRows16_eq, v36_eq]
  exact LibGatherRows.gather_rows_apply (by omega) _ (val_main_v15 x0 x2) (val_main_v21 x1) e k

/-- The term edge e adds at column k: the source node's row entry times the edge's weight. -/
theorem v40_at (x0 : (⟨S100000x3, .f32⟩ : BufTy).Contents (Elt Ideal)) (x1 : EdgeArr)
    (x2 : (⟨S3x16, .f32⟩ : BufTy).Contents (Elt Ideal)) (e : Fin 3300000) (k : Fin 16) :
    val_main_v40 (F := Ideal) x0 x1 x2 (ix2 e k)
      = lin (fun p j => x0 (ix2 p j)) (fun j k => x2 (ix2 j k)) (gsrc x1 e) k
          * (disv x1 (gsrc x1 e) * disv x1 (gdst x1 e)) := by
  rw [val_main_v40_apply, v37_at, v15_at, val_main_v39_apply, idx_row16, val_main_v38_apply, col_idx, v30_at]
  rfl

/-- The first scatter starts from zero. -/
theorem v41_at (p : Fin 100000) (k : Fin 16) : val_main_v41 (F := Ideal) (ix2 p k) = 0 := by
  rw [val_main_v41_apply, val_main_cst_8_apply]
  exact Ideal.ofBits_zero_f32

/-- The first round before the bias, at (p, k): zero plus the terms of the edges that land on p. -/
theorem v43_at (x0 : (⟨S100000x3, .f32⟩ : BufTy).Contents (Elt Ideal)) (x1 : EdgeArr)
    (x2 : (⟨S3x16, .f32⟩ : BufTy).Contents (Elt Ideal)) (p : Fin 100000) (k : Fin 16) :
    val_main_v43 (F := Ideal) x0 x1 x2 (ix2 p k)
      = 0 + ∑ e : Fin 3300000, if lands x1 e p then
          lin (fun p j => x0 (ix2 p j)) (fun j k => x2 (ix2 j k)) (gsrc x1 e) k
            * (disv x1 (gsrc x1 e) * disv x1 (gdst x1 e)) else 0 := by
  unfold val_main_v43
  rw [scatterRows16_eq, v42_eq, LibScatterRows.scatterAdd_rows_apply, v41_at]
  refine congrArg (fun s => (0 : EReal) + s) (Finset.sum_congr rfl fun e _ => ?_)
  rw [v40_at]

/-- THE FIRST ROUND at (p, k). -/
theorem layer1_at (x0 : (⟨S100000x3, .f32⟩ : BufTy).Contents (Elt Ideal)) (x1 : EdgeArr)
    (x2 : (⟨S3x16, .f32⟩ : BufTy).Contents (Elt Ideal)) (x3 : (⟨S16, .f32⟩ : BufTy).Contents (Elt Ideal))
    (p : Fin 100000) (k : Fin 16) :
    val_main_v46 (F := Ideal) x0 x1 x2 x3 (ix2 p k)
      = layerIn 0 (lands x1) (gsrc x1) (gdst x1) (disv x1)
          (lin (fun p j => x0 (ix2 p j)) (fun j k => x2 (ix2 j k))) (fun j => x3 (ix1 j)) p k := by
  rw [val_main_v46_apply, v43_at, val_main_v45_apply, val_main_v44_apply, idx_bias16]
  rfl

/-! ## Between the rounds -/

/-- The larger of the first round's value and zero, at (p, k). -/
theorem v47_at (x0 : (⟨S100000x3, .f32⟩ : BufTy).Contents (Elt Ideal)) (x1 : EdgeArr)
    (x2 : (⟨S3x16, .f32⟩ : BufTy).Contents (Elt Ideal)) (x3 : (⟨S16, .f32⟩ : BufTy).Contents (Elt Ideal))
    (p : Fin 100000) (k : Fin 16) :
    val_main_v47 (F := Ideal) x0 x1 x2 x3 (ix2 p k)
      = max (layerIn 0 (lands x1) (gsrc x1) (gdst x1) (disv x1)
          (lin (fun p j => x0 (ix2 p j)) (fun j k => x2 (ix2 j k))) (fun j => x3 (ix1 j)) p k) 0 := by
  rw [val_main_v47_apply, layer1_at, val_main_call1_v0_apply, val_main_call1_cst_apply]
  exact congrArg (max _) Ideal.ofBits_zero_f32

/-! ## The second round -/

/-- The first round's result times the second weight matrix, at (p, q). -/
theorem v48_at (x0 : (⟨S100000x3, .f32⟩ : BufTy).Contents (Elt Ideal)) (x1 : EdgeArr)
    (x2 : (⟨S3x16, .f32⟩ : BufTy).Contents (Elt Ideal)) (x3 : (⟨S16, .f32⟩ : BufTy).Contents (Elt Ideal))
    (x4 : (⟨S16x1, .f32⟩ : BufTy).Contents (Elt Ideal)) (p : Fin 100000) (q : Fin 1) :
    val_main_v48 (F := Ideal) x0 x1 x2 x3 x4 (ix2 p q)
      = lin (fun p k => max (layerIn 0 (lands x1) (gsrc x1) (gdst x1) (disv x1)
          (lin (fun p j => x0 (ix2 p j)) (fun j k => x2 (ix2 j k))) (fun j => x3 (ix1 j)) p k) 0)
          (fun k j => x4 (ix2 k j)) p q := by
  rw [val_main_v48_apply]
  show _ = ∑ k : Fin 16, max (layerIn 0 (lands x1) (gsrc x1) (gdst x1) (disv x1)
          (lin (fun p j => x0 (ix2 p j)) (fun j k => x2 (ix2 j k))) (fun j => x3 (ix1 j)) p k) 0 * x4 (ix2 k q)
  refine Finset.sum_congr rfl fun k _ => ?_
  have hl : lidx_main_v48 (ix2 p q) k = ix2 p k := by
    funext a; match a with | ⟨0, _⟩ => rfl | ⟨1, _⟩ => rfl
  have hr : ridx_main_v48 (ix2 p q) k = ix2 k q := by
    funext a; match a with | ⟨0, _⟩ => rfl | ⟨1, _⟩ => rfl
  rw [hl, hr, v47_at]

/-- The weight of edge e, computed a second time. -/
theorem v63_at (x1 : EdgeArr) (e : Fin 3300000) :
    val_main_v63 (F := Ideal) x1 (ix1 e) = disv x1 (gsrc x1 e) * disv x1 (gdst x1 e) := by
  have h55 : val_main_v55 (F := Ideal) x1 (ix1 e) = disv x1 (gsrc x1 e) := by
    unfold val_main_v55 disv gsrc
    rw [gatherScalars_eq, v54_eq]
    exact LibGatherRows.gather_scalars_apply (by omega) _ (val_main_v14 x1) (val_main_v21 x1) e
  have h62 : val_main_v62 (F := Ideal) x1 (ix1 e) = disv x1 (gdst x1 e) := by
    unfold val_main_v62 disv gdst
    rw [gatherScalars_eq, v61_eq]
    exact LibGatherRows.gather_scalars_apply (by omega) _ (val_main_v14 x1) (val_main_v28 x1) e
  rw [val_main_v63_apply, h55, h62]
  rfl

/-- A vector broadcast to a one-column matrix reads, at row e, the vector's entry e (the second round's copy). -/
theorem col_idx2 (e : Fin 3300000) (u : Fin 1) : idx_main_v71 (ix2 e u) = ix1 e := by
  funext a; match a with | ⟨0, _⟩ => rfl

/-- The second bias, broadcast over the nodes, reads at (p, q) the bias's one entry. -/
theorem idx_bias1 (p : Fin 100000) (q : Fin 1) : idx_main_v76 (idx_main_v77 (ix2 p q)) = ix1 q := by
  funext a; match a with | ⟨0, _⟩ => exact Fin.ext (by have := q.isLt; show 0 = q.val; omega)

/-- The row gathered for edge e is the row of its source node. -/
theorem v70_at (x0 : (⟨S100000x3, .f32⟩ : BufTy).Contents (Elt Ideal)) (x1 : EdgeArr)
    (x2 : (⟨S3x16, .f32⟩ : BufTy).Contents (Elt Ideal)) (x3 : (⟨S16, .f32⟩ : BufTy).Contents (Elt Ideal))
    (x4 : (⟨S16x1, .f32⟩ : BufTy).Contents (Elt Ideal)) (e : Fin 3300000) (q : Fin 1) :
    val_main_v70 (F := Ideal) x0 x1 x2 x3 x4 (ix2 e q) = val_main_v48 x0 x1 x2 x3 x4 (ix2 (gsrc x1 e) q) := by
  unfold val_main_v70 gsrc
  rw [gatherRows1_eq, v69_eq]
  exact LibGatherRows.gather_rows_apply (by omega) _ (val_main_v48 x0 x1 x2 x3 x4) (val_main_v21 x1) e q

/-- The second scatter starts from zero. -/
theorem v73_at (p : Fin 100000) (q : Fin 1) : val_main_v73 (F := Ideal) (ix2 p q) = 0 := by
  rw [val_main_v73_apply, val_main_cst_15_apply]
  exact Ideal.ofBits_zero_f32

/-- THE RESULT at (p, q): the two rounds, the node weights applied inside the sums. -/
theorem ref_entry (x0 : (⟨S100000x3, .f32⟩ : BufTy).Contents (Elt Ideal)) (x1 : EdgeArr) (x2 : (⟨S3x16, .f32⟩ : BufTy).Contents (Elt Ideal)) (x3 : (⟨S16, .f32⟩ : BufTy).Contents (Elt Ideal)) (x4 : (⟨S16x1, .f32⟩ : BufTy).Contents (Elt Ideal)) (x5 : (⟨S1, .f32⟩ : BufTy).Contents (Elt Ideal)) (p : Fin 100000) (q : Fin 1) :
    val_main_v78 (F := Ideal) x0 x1 x2 x3 x4 x5 (ix2 p q)
      = netIn 0 (lands x1) (gsrc x1) (gdst x1) (disv x1) (fun p k => x0 (ix2 p k)) (fun k j => x2 (ix2 k j)) (fun j => x3 (ix1 j)) (fun k j => x4 (ix2 k j)) (fun j => x5 (ix1 j)) p q := by
  have h75 : val_main_v75 (F := Ideal) x0 x1 x2 x3 x4 (ix2 p q)
      = 0 + ∑ e : Fin 3300000, if lands x1 e p then
          lin (fun p k => max (layerIn 0 (lands x1) (gsrc x1) (gdst x1) (disv x1)
            (lin (fun p j => x0 (ix2 p j)) (fun j k => x2 (ix2 j k))) (fun j => x3 (ix1 j)) p k) 0)
            (fun k j => x4 (ix2 k j)) (gsrc x1 e) q
            * (disv x1 (gsrc x1 e) * disv x1 (gdst x1 e)) else 0 := by
    unfold val_main_v75
    rw [scatterRows1_eq, v74_eq, LibScatterRows.scatterAdd_rows_apply, v73_at]
    refine congrArg (fun s => (0 : EReal) + s) (Finset.sum_congr rfl fun e _ => ?_)
    rw [val_main_v72_apply, v70_at, v48_at, val_main_v71_apply, col_idx2, v63_at]
    rfl
  rw [val_main_v78_apply, h75, val_main_v77_apply, val_main_v76_apply, idx_bias1]
  rfl

end Cert.ReferenceIdeal.RefValue

end
-- ==== Proof.KernelRun.lean ====
/-
  The kernel program's run with its result named.

  The program is ten segments: stretches of host operations and four kernel launches in turn. After the last launch
  every unscoped buffer holds the last boundary's contents, a fold of the segments over the launch memory. The frame
  only reads the argument arrays out of that; here the result array is read out as well, so that its value can be
  computed from the fold.
-/
import proofs.«149689_j18133351924184_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v44) = W10 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v44 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.RunValue

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.LibColumnBroadcast.lean ====
/-
  A column broadcast over many columns, read at an index: a `[a, 1]` array broadcast to `[a, b]` reads, at `(p, c)`, the
  operand's row `p` at its one column. (The companion of the library's row form `broadcastTo_1b_ab_apply`; extents general.)
-/
import Idealize.ShloMosaic.Lib.ValueLayout

namespace Idealize.ShloMosaic.ValueIdx

open Idealize.ShloMosaic

variable {α : Type}

/-- A `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RegionsLinear.lean ====
/-
  The two regions of the kernel that multiply a block of rows by a weight matrix and then scale each row by a
  per-row factor: at every index of the region's output array, the value written is the row's dot product with the
  weight matrix's column, times the row's factor — as a function of the three input arrays as the region finds them.
-/
import proofs.«149689_j18133351924184_2_alg».proof.Proof.Gen.KernelIdeal.Frame
import proofs.«149689_j18133351924184_2_alg».proof.Proof.LibPlainProduct
import proofs.«149689_j18133351924184_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-! ## Region 0: rows of three features times a 3 × 16 weight matrix, each row scaled -/

/-- The body's arithmetic at row `p`, column `q` of a block: rounding to the narrower format is the identity on the
    exact extended reals, the product into a zero accumulator is the plain sum over the three shared coordinates,
    and the one-column factor is read at the row. -/
theorem scaledProduct0_apply (x0 : Vec Ideal S5000x3 .f32) (x1 : Vec Ideal S3x16 .f32) (x2 : Vec Ideal S5000x1 .f32)
    (p : Fin 5000) (q : Fin 16) :
    k0_pay1 x0 x1 x2 (ix2 p q) = (∑ k : Fin 3, x0 (ix2 p k) * x1 (ix2 k q)) * x2 (ix2 p (0 : Fin 1)) := by
  unfold k0_pay1
  rw [mulf_apply, broadcastTo_a1_ab_apply, shapeCast_self]
  refine congrArg (· * x2 (ix2 p (0 : Fin 1))) ?_
  exact matmul_zero_plain_apply (M := 5000) (K := 3) (N := 16) dot_S5000x3_S3x16_S5000x16_1_0_0_1_n_n rfl rfl rfl rfl rfl rfl none
    (truncf .bf16 x0 bitsLt_bf16_f32) (truncf .bf16 x1 bitsLt_bf16_f32) p q

theorem zeroOffsets : (![0, 0] : Fin 2 → Nat) = fun _ => 0 := funext fun a => by fin_cases a <;> rfl

/-- The region's output array as one function of its three input arrays: at row `p`, column `q`, row `p` of the
    features times column `q` of the weights, scaled by row `p`'s factor. -/
def scaledProduct0 (a0 : S100000x3.Idx → EReal) (a1 : S3x16.Idx → EReal) (a2 : S100000x1.Idx → EReal) :
    S100000x16.Idx → EReal :=
  fun i => (∑ k : Fin 3, a0 (ix2 (i 0 : Fin 100000) k) * a1 (ix2 k (i 1 : Fin 16))) * a2 (ix2 (i 0 : Fin 100000) (0 : Fin 1))

/-- The index maps, decided over the twenty grid points: the feature rows, the factor rows and the output rows move
    together, block `t` at point `t`; the weight matrix is one block, at the origin; no window moves along columns. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point `t` is rows `5000 t … 5000 t + 4999` of the feature array. -/
theorem featureBlock0_apply (V : (c : Dev nD) → (b : Ref sig .tc) → Buf (Elt Ideal) ((c : Thread nD τ).loc b)) (c : Dev nD) (t : Fin cfg0.N)
    (p : Fin 5000) (k : Fin 3) (r : Fin 100000) (hr : r.val = 5000 * t.val + p.val) :
    iblk0 V c 0 t (ix2 p k) = V c main_arg0 (ix2 r k) := by
  obtain ⟨e0, e1, -⟩ := blockIndex0 t
  unfold iblk0
  rw [View.read_apply]
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 3 + 1 * k.val = k.val; omega

/-- The weight block at every point is the whole weight matrix. -/
theorem weightBlock0_apply (V : (c : Dev nD) → (b : Ref sig .tc) → Buf (Elt Ideal) ((c : Thread nD τ).loc b)) (c : Dev nD) (t : Fin cfg0.N)
    (k : Fin 3) (q q' : Fin 16) (hq : q'.val = q.val) :
    iblk0 V c 1 t (ix2 k q) = V c main_arg2 (ix2 k q') := by
  obtain ⟨-, -, e0, e1, -⟩ := blockIndex0 t
  unfold iblk0
  rw [View.read_apply]
  show V c main_arg2 (((cfg0.win 1).blk t).view.emb (ix2 k q)) = V c main_arg2 (ix2 k q')
  refine congrArg _ (funext fun a => Fin.ext ?_)
  match a with
  | ⟨0, _⟩ => show win0_1.index t (0 : Fin 2) * 3 + 1 * k.val = k.val; omega
  | ⟨1, _⟩ => show win0_1.index t (1 : Fin 2) * 16 + 1 * q.val = q'.val; omega

/-- The factor block at point `t` is rows `5000 t … 5000 t + 4999` of the one-column factor array. -/
theorem factorBlock0_apply (V : (c : Dev nD) → (b : Ref sig .tc) → Buf (Elt Ideal) ((c : Thread nD τ).loc b)) (c : Dev nD) (t : Fin cfg0.N)
    (p : Fin 5000) (r : Fin 100000) (hr : r.val = 5000 * t.val + p.val) :
    iblk0 V c 2 t (ix2 p (0 : Fin 1)) = V c main_v15 (ix2 r (0 : Fin 1)) := by
  obtain ⟨-, -, -, -, e0, e1, -⟩ := blockIndex0 t
  unfold iblk0
  rw [View.read_apply]
  show V c main_v15 (((cfg0.win 2).blk t).view.emb (ix2 p (0 : Fin 1))) = V c main_v15 (ix2 r (0 : Fin 1))
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- WHAT POINT `t` WRITES BACK is block `t` of `scaledProduct0` of the three input arrays as the region finds them. -/
theorem flushed0_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (scaledProduct0 (V c main_arg0) (V c main_arg2) (V c main_v15)) := by
  show (cfg0.win 3).cut (grid0.coords t) ((dat0 V c).after 3 t) = _
  rw [after0_3]
  unfold out0_3
  rw [View.canon_unit_zero zeroOffsets]
  simp only [View.ld_unit_zero (S := S5000x3) zeroOffsets, View.ld_unit_zero (S := S3x16) zeroOffsets, View.ld_unit_zero (S := S5000x1) zeroOffsets]
  funext j
  obtain ⟨p, q, rfl⟩ : ∃ (p : Fin 5000) (q : Fin 16), j = ix2 p q := ⟨j 0, j 1, eq_ix2 (n0 := 5000) (n1 := 16) j⟩
  show k0_pay1 (iblk0 V c 0 t) (iblk0 V c 1 t) (iblk0 V c 2 t) (ix2 p q) = scaledProduct0 (V c main_arg0) (V c main_arg2) (V c main_v15) (((cfg0.win 3).blk t).view.emb (ix2 p q))
  refine (scaledProduct0_apply (iblk0 V c 0 t) (iblk0 V c 1 t) (iblk0 V c 2 t) p q).trans ?_
  obtain ⟨-, -, -, -, -, -, e0, e1⟩ := blockIndex0 t
  have hr : ((((cfg0.win 3).blk t).view.emb (ix2 p q)) 0 : Fin 100000).val = 5000 * t.val + p.val := by
    show win0_3.index t (0 : Fin 2) * 5000 + 1 * p.val = _; omega
  have hq : ((((cfg0.win 3).blk t).view.emb (ix2 p q)) 1 : Fin 16).val = q.val := by
    show win0_3.index t (1 : Fin 2) * 16 + 1 * q.val = _; omega
  unfold scaledProduct0
  refine congrArg₂ (· * ·) (Finset.sum_congr rfl fun k _ => congrArg₂ (· * ·) ?_ ?_) ?_
  · exact featureBlock0_apply V c t p k _ hr
  · exact weightBlock0_apply V c t k q _ hq
  · exact factorBlock0_apply V c t p _ hr

/-- An index of the output array is in point `t`'s block iff each coordinate is in the block's range on its axis. -/
theorem mem_block0 (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v16).slice (win0_3.rect t)).set ↔ _
  rw [View.set_slice_whole, Rect.mem_set_unit]
  exact Iff.rfl

/-- The twenty blocks of 5000 rows cover the 100000 rows: row `r` is in the block of point `r / 5000`. -/
theorem covered0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1⟩ := blockIndex0 t
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

/-- THE OUTPUT ARRAY after the region is `scaledProduct0` of the three input arrays as the region finds them. -/
theorem output0_eq (V : (c : Dev nD) → (b : Ref sig .tc) → Buf (Elt Ideal) ((c : Thread nD τ).loc b)) (c : Dev nD) :
    (dat0 (F := Ideal) V c).arrAt 3 cfg0.N = scaledProduct0 (V c main_arg0) (V c main_arg2) (V c main_v15) :=
  (dat0 V c).arrAt_eq_of_cover 3 _ (fun t _ => flushed0_eq V c t) covered0

/-- `scaledProduct0` at row `p`, column `q`. -/
theorem scaledProduct0_ix2 (a0 : S100000x3.Idx → EReal) (a1 : S3x16.Idx → EReal) (a2 : S100000x1.Idx → EReal)
    (p : Fin 100000) (q : Fin 16) :
    scaledProduct0 a0 a1 a2 (ix2 p q) = (∑ k : Fin 3, a0 (ix2 p k) * a1 (ix2 k q)) * a2 (ix2 p (0 : Fin 1)) := rfl

/-- Entry by entry: row `p` of the features times column `q` of the weights, scaled by row `p`'s factor — the three
    input arrays as the region finds them named `a0`, `a1`, `a2`. -/
theorem region0_entry (V : (c : Dev nD) → (b : Ref sig .tc) → Buf (Elt Ideal) ((c : Thread nD τ).loc b)) (c : Dev nD)
    (a0 : S100000x3.Idx → EReal) (a1 : S3x16.Idx → EReal) (a2 : S100000x1.Idx → EReal)
    (h0 : V c main_arg0 = a0) (h1 : V c main_arg2 = a1) (h2 : V c main_v15 = a2) (p : Fin 100000) (q : Fin 16) :
    (dat0 (F := Ideal) V c).arrAt 3 cfg0.N (ix2 p q)
      = (∑ k : Fin 3, a0 (ix2 p k) * a1 (ix2 k q)) * a2 (ix2 p (0 : Fin 1)) := by
  subst h0 h1 h2
  exact congrFun (output0_eq V c) (ix2 p q)

/-! ## Region 2: rows of sixteen features times a 16 × 1 weight column, each row scaled -/

/-- The body's arithmetic at row `p` of a block (the one column `q`): rounding to the narrower format is the identity
    on the exact extended reals, the product into a zero accumulator is the plain sum over the sixteen shared
    coordinates, and the factor is read at the row. -/
theorem scaledProduct2_apply (x0 : Vec Ideal S5000x16 .f32) (x1 : Vec Ideal S16x1 .f32) (x2 : Vec Ideal S5000x1 .f32)
    (p : Fin 5000) (q : Fin 1) :
    k2_pay1 x0 x1 x2 (ix2 p q) = (∑ k : Fin 16, x0 (ix2 p k) * x1 (ix2 k q)) * x2 (ix2 p q) := by
  unfold k2_pay1
  rw [mulf_apply, shapeCast_self, shapeCast_self]
  refine congrArg (· * x2 (ix2 p q)) ?_
  exact matmul_zero_plain_apply (M := 5000) (K := 16) (N := 1) dot_S5000x16_S16x1_S5000x1_1_0_0_1_n_n rfl rfl rfl rfl rfl rfl none
    (truncf .bf16 x0 bitsLt_bf16_f32) (truncf .bf16 x1 bitsLt_bf16_f32) p q

/-- The region's output array as one function of its three input arrays: at row `p` (and the one column), row `p` of
    the features times the weight column, scaled by row `p`'s factor. -/
def scaledProduct2 (a0 : S100000x16.Idx → EReal) (a1 : S16x1.Idx → EReal) (a2 : S100000x1.Idx → EReal) :
    S100000x1.Idx → EReal :=
  fun i => (∑ k : Fin 16, a0 (ix2 (i 0 : Fin 100000) k) * a1 (ix2 k (i 1 : Fin 1))) * a2 (ix2 (i 0 : Fin 100000) (0 : Fin 1))

/-- The index maps, decided over the twenty grid points: the feature rows, the factor rows and the output rows move
    together, block `t` at point `t`; the weight column is one block, at the origin; no window moves along columns. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The feature block at point `t` is rows `5000 t … 5000 t + 4999` of the feature array. -/
theorem featureBlock2_apply (V : (c : Dev nD) → (b : Ref sig .tc) → Buf (Elt Ideal) ((c : Thread nD τ).loc b)) (c : Dev nD) (t : Fin cfg2.N)
    (p : Fin 5000) (k : Fin 16) (r : Fin 100000) (hr : r.val = 5000 * t.val + p.val) :
    iblk2 V c 0 t (ix2 p k) = V c main_v29 (ix2 r k) := by
  obtain ⟨e0, e1, -⟩ := blockIndex2 t
  unfold iblk2
  rw [View.read_apply]
  show V c main_v29 (((cfg2.win 0).blk t).view.emb (ix2 p k)) = V c main_v29 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 16 + 1 * k.val = k.val; omega

/-- The weight block at every point is the whole weight column. -/
theorem weightBlock2_apply (V : (c : Dev nD) → (b : Ref sig .tc) → Buf (Elt Ideal) ((c : Thread nD τ).loc b)) (c : Dev nD) (t : Fin cfg2.N)
    (k : Fin 16) (q q' : Fin 1) :
    iblk2 V c 1 t (ix2 k q) = V c main_arg4 (ix2 k q') := by
  obtain ⟨-, -, e0, e1, -⟩ := blockIndex2 t
  have hq : q.val = 0 := by have := q.isLt; omega
  have hq' : q'.val = 0 := by have := q'.isLt; omega
  unfold iblk2
  rw [View.read_apply]
  show V c main_arg4 (((cfg2.win 1).blk t).view.emb (ix2 k q)) = V c main_arg4 (ix2 k q')
  refine congrArg _ (funext fun a => Fin.ext ?_)
  match a with
  | ⟨0, _⟩ => show win2_1.index t (0 : Fin 2) * 16 + 1 * k.val = k.val; omega
  | ⟨1, _⟩ => show win2_1.index t (1 : Fin 2) * 1 + 1 * q.val = q'.val; omega

/-- The factor block at point `t` is rows `5000 t … 5000 t + 4999` of the one-column factor array. -/
theorem factorBlock2_apply (V : (c : Dev nD) → (b : Ref sig .tc) → Buf (Elt Ideal) ((c : Thread nD τ).loc b)) (c : Dev nD) (t : Fin cfg2.N)
    (p : Fin 5000) (q : Fin 1) (r : Fin 100000) (hr : r.val = 5000 * t.val + p.val) :
    iblk2 V c 2 t (ix2 p q) = V c main_v30 (ix2 r (0 : Fin 1)) := by
  obtain ⟨-, -, -, -, e0, e1, -⟩ := blockIndex2 t
  have hq : q.val = 0 := by have := q.isLt; omega
  unfold iblk2
  rw [View.read_apply]
  show V c main_v30 (((cfg2.win 2).blk t).view.emb (ix2 p q)) = V c main_v30 (ix2 r (0 : Fin 1))
  refine congrArg _ (funext fun a => Fin.ext ?_)
  match a with
  | ⟨0, _⟩ => show win2_2.index t (0 : Fin 2) * 5000 + 1 * p.val = r.val; omega
  | ⟨1, _⟩ => show win2_2.index t (1 : Fin 2) * 1 + 1 * q.val = 0; omega

/-- WHAT POINT `t` WRITES BACK is block `t` of `scaledProduct2` of the three input arrays as the region finds them. -/
theorem flushed2_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (scaledProduct2 (V c main_v29) (V c main_arg4) (V c main_v30)) := by
  show (cfg2.win 3).cut (grid2.coords t) ((dat2 V c).after 3 t) = _
  rw [after2_3]
  unfold out2_3
  rw [View.canon_unit_zero zeroOffsets]
  simp only [View.ld_unit_zero (S := S5000x16) zeroOffsets, View.ld_unit_zero (S := S16x1) zeroOffsets, View.ld_unit_zero (S := S5000x1) zeroOffsets]
  funext j
  obtain ⟨p, q, rfl⟩ : ∃ (p : Fin 5000) (q : Fin 1), j = ix2 p q := ⟨j 0, j 1, eq_ix2 (n0 := 5000) (n1 := 1) j⟩
  show k2_pay1 (iblk2 V c 0 t) (iblk2 V c 1 t) (iblk2 V c 2 t) (ix2 p q) = scaledProduct2 (V c main_v29) (V c main_arg4) (V c main_v30) (((cfg2.win 3).blk t).view.emb (ix2 p q))
  refine (scaledProduct2_apply (iblk2 V c 0 t) (iblk2 V c 1 t) (iblk2 V c 2 t) p q).trans ?_
  obtain ⟨-, -, -, -, -, -, e0, e1⟩ := blockIndex2 t
  have hr : ((((cfg2.win 3).blk t).view.emb (ix2 p q)) 0 : Fin 100000).val = 5000 * t.val + p.val := by
    show win2_3.index t (0 : Fin 2) * 5000 + 1 * p.val = _; omega
  unfold scaledProduct2
  refine congrArg₂ (· * ·) (Finset.sum_congr rfl fun k _ => congrArg₂ (· * ·) ?_ ?_) ?_
  · exact featureBlock2_apply V c t p k _ hr
  · exact weightBlock2_apply V c t k q _
  · exact factorBlock2_apply V c t p q _ hr

/-- An index of the output array is in point `t`'s block iff each coordinate is in the block's range on its axis. -/
theorem mem_block2 (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v31).slice (win2_3.rect t)).set ↔ _
  rw [View.set_slice_whole, Rect.mem_set_unit]
  exact Iff.rfl

/-- The twenty blocks of 5000 rows cover the 100000 rows: row `r` is in the block of point `r / 5000`. -/
theorem covered2 (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e0, e1⟩ := blockIndex2 t
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 1 ≤ (i 1).val ∧ (i 1).val < win2_3.index t (1 : Fin 2) * 1 + 1; omega

/-- THE OUTPUT ARRAY after the region is `scaledProduct2` of the three input arrays as the region finds them. -/
theorem output2_eq (V : (c : Dev nD) → (b : Ref sig .tc) → Buf (Elt Ideal) ((c : Thread nD τ).loc b)) (c : Dev nD) :
    (dat2 (F := Ideal) V c).arrAt 3 cfg2.N = scaledProduct2 (V c main_v29) (V c main_arg4) (V c main_v30) :=
  (dat2 V c).arrAt_eq_of_cover 3 _ (fun t _ => flushed2_eq V c t) covered2

/-- `scaledProduct2` at row `p` (and the one column `q`). -/
theorem scaledProduct2_ix2 (a0 : S100000x16.Idx → EReal) (a1 : S16x1.Idx → EReal) (a2 : S100000x1.Idx → EReal)
    (p : Fin 100000) (q : Fin 1) :
    scaledProduct2 a0 a1 a2 (ix2 p q) = (∑ k : Fin 16, a0 (ix2 p k) * a1 (ix2 k q)) * a2 (ix2 p (0 : Fin 1)) := rfl

/-- Entry by entry: row `p` of the features times the weight column, scaled by row `p`'s factor — the three input
    arrays as the region finds them named `a0`, `a1`, `a2`. -/
theorem region2_entry (V : (c : Dev nD) → (b : Ref sig .tc) → Buf (Elt Ideal) ((c : Thread nD τ).loc b)) (c : Dev nD)
    (a0 : S100000x16.Idx → EReal) (a1 : S16x1.Idx → EReal) (a2 : S100000x1.Idx → EReal)
    (h0 : V c main_v29 = a0) (h1 : V c main_arg4 = a1) (h2 : V c main_v30 = a2) (p : Fin 100000) (q : Fin 1) :
    (dat2 (F := Ideal) V c).arrAt 3 cfg2.N (ix2 p q)
      = (∑ k : Fin 16, a0 (ix2 p k) * a1 (ix2 k q)) * a2 (ix2 p (0 : Fin 1)) := by
  subst h0 h1 h2
  exact congrFun (output2_eq V c) (ix2 p q)

end Cert.KernelIdeal.RegionValue

end
-- ==== Proof.RegionsAffine.lean ====
/-
  The two regions that scale each row of a neighbourhood sum by the node's weight and add the bias, read as arrays.

  Each region runs over twenty points; at point t it takes rows 5000·t … 5000·t + 4999 of the sum and of the weight
  column, and the whole bias row, and writes back the same rows of its result: entry (r, q) of the block is the sum's
  entry times the weight of row r plus the bias of column q (the first of the two regions then takes the larger of that
  and zero). The twenty blocks tile the result array, so after the region its entry (p, q) is that same expression of
  the entry contents of the three input arrays at row p.
-/
import proofs.«149689_j18133351924184_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import proofs.«149689_j18133351924184_2_alg».proof.Proof.LibColumnBroadcast

set_option maxRecDepth 16384

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- A whole-block load or store starts at row 0 and column 0. -/
theorem zero_offsets : (![0, 0] : Fin 2 → Nat) = fun _ => 0 := funext fun a => by fin_cases a <;> rfl

/-! ## The first of the two regions: sixteen columns, and the larger of the value and zero -/

/-- The body's value at row r and column q of the block: the sum's entry times the weight of row r, plus the bias of
    column q, or zero if that is larger. -/
theorem scaledRowsPlusBiasOrZero_apply (x0 : Vec Ideal S5000x16 .f32) (x1 : Vec Ideal S5000x1 .f32)
    (x2 : Vec Ideal S1x16 .f32) (r : Fin 5000) (q : Fin 16) :
    k1_pay1 x0 x1 x2 (ix2 r q)
      = max (x0 (ix2 r q) * x1 (ix2 r (0 : Fin 1)) + x2 (ix2 (0 : Fin 1) q)) (Ideal.ofBits .f32 0x00000000#32) := by
  unfold k1_pay1
  simp only [shapeCast_self]
  rw [maximumf_apply, addf_apply, mulf_apply, broadcastTo_a1_ab_apply, broadcastTo_1b_ab_apply, broadcast_apply]
  rfl

/-- The block the body leaves is its value: one store over the whole block of whole-block loads. -/
theorem rowsBlock_eq (x0 : Vec Ideal S5000x16 .f32) (x1 : Vec Ideal S5000x1 .f32) (x2 : Vec Ideal S1x16 .f32) :
    out1_3 x0 x1 x2 = k1_pay1 x0 x1 x2 := by
  unfold out1_3
  rw [View.canon_unit_zero zero_offsets]
  simp only [View.ld_unit_zero (S := S5000x16) zero_offsets, View.ld_unit_zero (S := S5000x1) zero_offsets,
    View.ld_unit_zero (S := S1x16) zero_offsets]

/-- The sixteen-column result as one function of the three arrays the region reads: at node p and column q, the sum's
    entry times the weight of node p, plus the bias of column q, or zero if that is larger. -/
def scaledRowsPlusBiasOrZero (a0 : S100000x16.Idx → Elt Ideal .f32) (a1 : S100000x1.Idx → Elt Ideal .f32)
    (a2 : S1x16.Idx → Elt Ideal .f32) : S100000x16.Idx → Elt Ideal .f32 :=
  fun i => max (a0 i * a1 (ix2 (i 0 : Fin 100000) (0 : Fin 1)) + a2 (ix2 (0 : Fin 1) (i 1 : Fin 16)))
    (Ideal.ofBits .f32 0x00000000#32)

/-- That function at node p and column q. -/
theorem scaledRowsPlusBiasOrZero_ix2 (a0 : S100000x16.Idx → Elt Ideal .f32) (a1 : S100000x1.Idx → Elt Ideal .f32)
    (a2 : S1x16.Idx → Elt Ideal .f32) (p : Fin 100000) (q : Fin 16) :
    scaledRowsPlusBiasOrZero a0 a1 a2 (ix2 p q)
      = max (a0 (ix2 p q) * a1 (ix2 p (0 : Fin 1)) + a2 (ix2 (0 : Fin 1) q)) (Ideal.ofBits .f32 0x00000000#32) := rfl

/-- The printed index maps over the twenty points: at point t the sum's, the weight column's and the result's block is
    block row t; the bias's block is its whole array. -/
theorem blockRows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of point t's block of the sum is row 5000·t + r of the sum. -/
theorem sumBlock1_apply (c : Dev nD) (t : Fin cfg1.N) (r : Fin 5000) (q : Fin 16) (p : Fin 100000)
    (hp : p.val = 5000 * t.val + r.val) :
    (iblk1 V c 0 t : Vec Ideal S5000x16 .f32) (ix2 r q) = (V c main_v26 : S100000x16.Idx → Elt Ideal .f32) (ix2 p q) := by
  obtain ⟨e0, e1, -⟩ := blockRows1 t
  unfold iblk1
  rw [View.read_apply]
  show V c main_v26 _ = V c main_v26 _
  congr 1
  funext a; apply Fin.ext
  match a with
  | ⟨0, _⟩ => show win1_0.index t (0 : Fin 2) * 5000 + 1 * r.val = p.val; omega
  | ⟨1, _⟩ => show win1_0.index t (1 : Fin 2) * 16 + 1 * q.val = q.val; omega

/-- Row r of point t's block of the weight column is the weight of node 5000·t + r. -/
theorem weightBlock1_apply (c : Dev nD) (t : Fin cfg1.N) (r : Fin 5000) (p : Fin 100000)
    (hp : p.val = 5000 * t.val + r.val) :
    (iblk1 V c 1 t : Vec Ideal S5000x1 .f32) (ix2 r (0 : Fin 1))
      = (V c main_v27 : S100000x1.Idx → Elt Ideal .f32) (ix2 p (0 : Fin 1)) := by
  obtain ⟨-, -, e0, e1, -⟩ := blockRows1 t
  unfold iblk1
  rw [View.read_apply]
  show V c main_v27 _ = V c main_v27 _
  congr 1
  funext a; apply Fin.ext
  match a with
  | ⟨0, _⟩ => show win1_1.index t (0 : Fin 2) * 5000 + 1 * r.val = p.val; omega
  | ⟨1, _⟩ => show win1_1.index t (1 : Fin 2) * 1 + 1 * (0 : Fin 1).val = (0 : Fin 1).val; omega

/-- The bias's block at every point is the bias. -/
theorem biasBlock1_apply (c : Dev nD) (t : Fin cfg1.N) (q : Fin 16) :
    (iblk1 V c 2 t : Vec Ideal S1x16 .f32) (ix2 (0 : Fin 1) q)
      = (V c main_v28 : S1x16.Idx → Elt Ideal .f32) (ix2 (0 : Fin 1) q) := by
  obtain ⟨-, -, -, -, e0, e1, -⟩ := blockRows1 t
  unfold iblk1
  rw [View.read_apply]
  show V c main_v28 _ = V c main_v28 _
  congr 1
  funext a; apply Fin.ext
  match a with
  | ⟨0, _⟩ => show win1_2.index t (0 : Fin 2) * 1 + 1 * (0 : Fin 1).val = (0 : Fin 1).val; omega
  | ⟨1, _⟩ => show win1_2.index t (1 : Fin 2) * 16 + 1 * q.val = q.val; omega

/-- Row r of point t's result block sits at row 5000·t + r of the result. -/
theorem resultBlock1_emb (t : Fin cfg1.N) (r : Fin 5000) (q : Fin 16) (p : Fin 100000)
    (hp : p.val = 5000 * t.val + r.val) :
    ((cfg1.win 3).blk t).view.emb (ix2 r q) = (ix2 p q : S100000x16.Idx) := by
  obtain ⟨-, -, -, -, -, -, e0, e1⟩ := blockRows1 t
  funext a; apply Fin.ext
  match a with
  | ⟨0, _⟩ => show win1_3.index t (0 : Fin 2) * 5000 + 1 * r.val = p.val; omega
  | ⟨1, _⟩ => show win1_3.index t (1 : Fin 2) * 16 + 1 * q.val = q.val; omega

/-- What point t writes back is block t of the one function of the three arrays. -/
theorem flushed1_eq (c : Dev nD) (t : Fin cfg1.N) :
    (dat1 (F := Ideal) V c).flushed 3 t
      = ((cfg1.win 3).blk t).view.read (Elt Ideal) (scaledRowsPlusBiasOrZero (V c main_v26) (V c main_v27) (V c main_v28)) := by
  show (cfg1.win 3).cut (grid1.coords t) ((dat1 V c).after 3 t) = _
  rw [after1_3, rowsBlock_eq]
  funext j
  obtain ⟨r, q, rfl⟩ : ∃ (r : Fin 5000) (q : Fin 16), j = ix2 r q := ⟨j 0, j 1, eq_ix2 j⟩
  have ht : t.val < 20 := Nat.lt_of_lt_of_eq t.isLt N_1
  have hr : r.val < 5000 := r.isLt
  obtain ⟨p, hp⟩ : ∃ p : Fin 100000, p.val = 5000 * t.val + r.val := ⟨⟨5000 * t.val + r.val, by omega⟩, rfl⟩
  show k1_pay1 (iblk1 V c 0 t) (iblk1 V c 1 t) (iblk1 V c 2 t) (ix2 r q)
    = scaledRowsPlusBiasOrZero (V c main_v26) (V c main_v27) (V c main_v28) (((cfg1.win 3).blk t).view.emb (ix2 r q))
  rw [resultBlock1_emb t r q p hp, scaledRowsPlusBiasOrZero_apply, sumBlock1_apply V c t r q p hp,
    weightBlock1_apply V c t r p hp, biasBlock1_apply V c t q]
  rfl

/-- An index of the result is in point t's block iff each coordinate is in the block's range on its axis. -/
theorem mem_resultBlock1 (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v29).slice (win1_3.rect t)).set ↔ _
  rw [View.set_slice_whole, Rect.mem_set_unit]
  exact Iff.rfl

/-- The twenty result blocks cover the result: row p is in the block of point p / 5000. -/
theorem resultBlocks1_cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e0, e1⟩ := blockRows1 t
  refine ⟨t, flush1_3 t, ?_⟩
  rw [mem_resultBlock1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 16 ≤ (i 1).val ∧ (i 1).val < win1_3.index t (1 : Fin 2) * 16 + 16; omega

/-- The result array after the region is the one function of the three arrays as the region found them. -/
theorem resultArray1 (c : Dev nD) :
    (dat1 (F := Ideal) V c).arrAt 3 cfg1.N = scaledRowsPlusBiasOrZero (V c main_v26) (V c main_v27) (V c main_v28) :=
  (dat1 (F := Ideal) V c).arrAt_eq_of_cover 3 _ (fun t _ => flushed1_eq V c t) resultBlocks1_cover

/-- Entry (p, q) of the sixteen-column result after the region: the sum's entry times the weight of node p, plus the
    bias of column q, or zero if that is larger. -/
theorem region1_entry (c : Dev nD) (p : Fin 100000) (q : Fin 16) :
    (dat1 (F := Ideal) V c).arrAt 3 cfg1.N (ix2 p q)
      = scaledRowsPlusBiasOrZero (V c main_v26) (V c main_v27) (V c main_v28) (ix2 p q) :=
  congrFun (resultArray1 V c) (ix2 p q)

/-! ## The second of the two regions: one column -/

/-- The body's value at row r of the block: the sum's entry times the weight of row r, plus the one bias. -/
theorem scaledColumnPlusBias_apply (x0 x1 : Vec Ideal S5000x1 .f32) (x2 : Vec Ideal S1x1 .f32) (r : Fin 5000) (q : Fin 1) :
    k3_pay1 x0 x1 x2 (ix2 r q) = x0 (ix2 r q) * x1 (ix2 r q) + x2 (ix2 (0 : Fin 1) q) := by
  unfold k3_pay1
  simp only [shapeCast_self]
  rw [addf_apply, mulf_apply, broadcastTo_1b_ab_apply]

/-- The block the body leaves is its value: one store over the whole block of whole-block loads. -/
theorem columnBlock_eq (x0 x1 : Vec Ideal S5000x1 .f32) (x2 : Vec Ideal S1x1 .f32) :
    out3_3 x0 x1 x2 = k3_pay1 x0 x1 x2 := by
  unfold out3_3
  rw [View.canon_unit_zero zero_offsets]
  simp only [View.ld_unit_zero (S := S5000x1) zero_offsets, View.ld_unit_zero (S := S1x1) zero_offsets]

/-- The one-column result as one function of the three arrays the region reads: at node p, the sum's entry times the
    weight of node p, plus the bias. -/
def scaledColumnPlusBias (a0 a1 : S100000x1.Idx → Elt Ideal .f32) (a2 : S1x1.Idx → Elt Ideal .f32) :
    S100000x1.Idx → Elt Ideal .f32 :=
  fun i => a0 i * a1 (ix2 (i 0 : Fin 100000) (0 : Fin 1)) + a2 (ix2 (0 : Fin 1) (i 1 : Fin 1))

/-- That function at node p and column q. -/
theorem scaledColumnPlusBias_ix2 (a0 a1 : S100000x1.Idx → Elt Ideal .f32) (a2 : S1x1.Idx → Elt Ideal .f32)
    (p : Fin 100000) (q : Fin 1) :
    scaledColumnPlusBias a0 a1 a2 (ix2 p q) = a0 (ix2 p q) * a1 (ix2 p (0 : Fin 1)) + a2 (ix2 (0 : Fin 1) q) := rfl

/-- The printed index maps over the twenty points: at point t the sum's, the weight column's and the result's block is
    block row t; the bias's block is its whole array. -/
theorem blockRows3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row r of point t's block of the sum is row 5000·t + r of the sum. -/
theorem sumBlock3_apply (c : Dev nD) (t : Fin cfg3.N) (r : Fin 5000) (q : Fin 1) (p : Fin 100000)
    (hp : p.val = 5000 * t.val + r.val) :
    (iblk3 V c 0 t : Vec Ideal S5000x1 .f32) (ix2 r q) = (V c main_v41 : S100000x1.Idx → Elt Ideal .f32) (ix2 p q) := by
  obtain ⟨e0, e1, -⟩ := blockRows3 t
  unfold iblk3
  rw [View.read_apply]
  show V c main_v41 _ = V c main_v41 _
  congr 1
  funext a; apply Fin.ext
  match a with
  | ⟨0, _⟩ => show win3_0.index t (0 : Fin 2) * 5000 + 1 * r.val = p.val; omega
  | ⟨1, _⟩ => show win3_0.index t (1 : Fin 2) * 1 + 1 * q.val = q.val; omega

/-- Row r of point t's block of the weight column is the weight of node 5000·t + r. -/
theorem weightBlock3_apply (c : Dev nD) (t : Fin cfg3.N) (r : Fin 5000) (q : Fin 1) (p : Fin 100000)
    (hp : p.val = 5000 * t.val + r.val) :
    (iblk3 V c 1 t : Vec Ideal S5000x1 .f32) (ix2 r q) = (V c main_v42 : S100000x1.Idx → Elt Ideal .f32) (ix2 p q) := by
  obtain ⟨-, -, e0, e1, -⟩ := blockRows3 t
  unfold iblk3
  rw [View.read_apply]
  show V c main_v42 _ = V c main_v42 _
  congr 1
  funext a; apply Fin.ext
  match a with
  | ⟨0, _⟩ => show win3_1.index t (0 : Fin 2) * 5000 + 1 * r.val = p.val; omega
  | ⟨1, _⟩ => show win3_1.index t (1 : Fin 2) * 1 + 1 * q.val = q.val; omega

/-- The bias's block at every point is the bias. -/
theorem biasBlock3_apply (c : Dev nD) (t : Fin cfg3.N) (q : Fin 1) :
    (iblk3 V c 2 t : Vec Ideal S1x1 .f32) (ix2 (0 : Fin 1) q) = (V c main_v43 : S1x1.Idx → Elt Ideal .f32) (ix2 (0 : Fin 1) q) := by
  obtain ⟨-, -, -, -, e0, e1, -⟩ := blockRows3 t
  unfold iblk3
  rw [View.read_apply]
  show V c main_v43 _ = V c main_v43 _
  congr 1
  funext a; apply Fin.ext
  match a with
  | ⟨0, _⟩ => show win3_2.index t (0 : Fin 2) * 1 + 1 * (0 : Fin 1).val = (0 : Fin 1).val; omega
  | ⟨1, _⟩ => show win3_2.index t (1 : Fin 2) * 1 + 1 * q.val = q.val; omega

/-- Row r of point t's result block sits at row 5000·t + r of the result. -/
theorem resultBlock3_emb (t : Fin cfg3.N) (r : Fin 5000) (q : Fin 1) (p : Fin 100000)
    (hp : p.val = 5000 * t.val + r.val) :
    ((cfg3.win 3).blk t).view.emb (ix2 r q) = (ix2 p q : S100000x1.Idx) := by
  obtain ⟨-, -, -, -, -, -, e0, e1⟩ := blockRows3 t
  funext a; apply Fin.ext
  match a with
  | ⟨0, _⟩ => show win3_3.index t (0 : Fin 2) * 5000 + 1 * r.val = p.val; omega
  | ⟨1, _⟩ => show win3_3.index t (1 : Fin 2) * 1 + 1 * q.val = q.val; omega

/-- What point t writes back is block t of the one function of the three arrays. -/
theorem flushed3_eq (c : Dev nD) (t : Fin cfg3.N) :
    (dat3 (F := Ideal) V c).flushed 3 t
      = ((cfg3.win 3).blk t).view.read (Elt Ideal) (scaledColumnPlusBias (V c main_v41) (V c main_v42) (V c main_v43)) := by
  show (cfg3.win 3).cut (grid3.coords t) ((dat3 V c).after 3 t) = _
  rw [after3_3, columnBlock_eq]
  funext j
  obtain ⟨r, q, rfl⟩ : ∃ (r : Fin 5000) (q : Fin 1), j = ix2 r q := ⟨j 0, j 1, eq_ix2 j⟩
  have ht : t.val < 20 := Nat.lt_of_lt_of_eq t.isLt N_3
  have hr : r.val < 5000 := r.isLt
  obtain ⟨p, hp⟩ : ∃ p : Fin 100000, p.val = 5000 * t.val + r.val := ⟨⟨5000 * t.val + r.val, by omega⟩, rfl⟩
  show k3_pay1 (iblk3 V c 0 t) (iblk3 V c 1 t) (iblk3 V c 2 t) (ix2 r q)
    = scaledColumnPlusBias (V c main_v41) (V c main_v42) (V c main_v43) (((cfg3.win 3).blk t).view.emb (ix2 r q))
  rw [resultBlock3_emb t r q p hp, scaledColumnPlusBias_apply, sumBlock3_apply V c t r q p hp,
    weightBlock3_apply V c t r q p hp, biasBlock3_apply V c t q]
  obtain rfl : q = 0 := Subsingleton.elim _ _
  rfl

/-- An index of the result is in point t's block iff each coordinate is in the block's range on its axis. -/
theorem mem_resultBlock3 (t : Fin cfg3.N) (i : S100000x1.Idx) :
    i ∈ ((cfg3.win 3).blk t).view.set ↔ ∀ a : Fin 2, win3_3.index t a * S5000x1.size a ≤ (i a).val ∧ (i a).val < win3_3.index t a * S5000x1.size a + S5000x1.size a := by
  show i ∈ ((View.whole main_v44).slice (win3_3.rect t)).set ↔ _
  rw [View.set_slice_whole, Rect.mem_set_unit]
  exact Iff.rfl

/-- The twenty result blocks cover the result: row p is in the block of point p / 5000. -/
theorem resultBlocks3_cover (i : S100000x1.Idx) :
    ∃ t : Fin cfg3.N, (cfg3.win 3).flush t = true ∧ i ∈ ((cfg3.win 3).blk t).view.set := by
  have hi0 : (i 0).val < 100000 := (i 0).isLt
  have hi1 : (i 1).val < 1 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, e0, e1⟩ := blockRows3 t
  refine ⟨t, flush3_3 t, ?_⟩
  rw [mem_resultBlock3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 1 ≤ (i 1).val ∧ (i 1).val < win3_3.index t (1 : Fin 2) * 1 + 1; omega

/-- The result array after the region is the one function of the three arrays as the region found them. -/
theorem resultArray3 (c : Dev nD) :
    (dat3 (F := Ideal) V c).arrAt 3 cfg3.N = scaledColumnPlusBias (V c main_v41) (V c main_v42) (V c main_v43) :=
  (dat3 (F := Ideal) V c).arrAt_eq_of_cover 3 _ (fun t _ => flushed3_eq V c t) resultBlocks3_cover

/-- Entry (p, q) of the one-column result after the region: the sum's entry times the weight of node p, plus the bias. -/
theorem region3_entry (c : Dev nD) (p : Fin 100000) (q : Fin 1) :
    (dat3 (F := Ideal) V c).arrAt 3 cfg3.N (ix2 p q)
      = scaledColumnPlusBias (V c main_v41) (V c main_v42) (V c main_v43) (ix2 p q) :=
  congrFun (resultArray3 V c) (ix2 p q)

end Cert.KernelIdeal.RegionValue

end
-- ==== Proof.KernelHost.lean ====
/-
  The kernel program's buffer contents at the boundaries between its segments, read back.

  Before the first launch the program computes, from the edge array alone, the source and destination vectors, the
  per-node count and the node weight, by the very operations the reference uses: those buffers hold the reference's
  stages of the same names. Between launches a host stretch gathers rows of the previous launch's result by the
  wrapped source column and adds them up by the raw destination column, and recasts the weight as a column and the
  bias as a row. No stretch and no launch writes a buffer it does not own, so the graph data and the arguments reach
  every later boundary unchanged. Each launch's result array is the function of its three input arrays that the
  launch's body computes row block by row block. Composing all of it gives the result array as one term of the
  argument arrays.
-/
import proofs.«149689_j18133351924184_2_alg».proof.Proof.Gen.KernelIdeal.Frame
import proofs.«149689_j18133351924184_2_alg».proof.Proof.Shared
import proofs.«149689_j18133351924184_2_alg».proof.Proof.RegionsLinear
import proofs.«149689_j18133351924184_2_alg».proof.Proof.RegionsAffine

set_option maxRecDepth 16384

noncomputable section

namespace Cert.KernelIdeal.HostValue

open Cert.KernelIdeal Cert.KernelIdeal.Gen Cert.KernelIdeal.RegionValue
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg) (c : Dev nD)

/-- The edge array as launched. -/
abbrev edges : Cert.Gcn.EdgeArr := m ((c : Thread nD τ).loc main_arg1)

/-! ## The composite of a host stretch: rows gathered by the wrapped source column, added up by the raw
    destination column -/

/-- Sixteen columns. -/
def aggTerm16 (A : (⟨S100000x16, .f32⟩ : BufTy).Contents (Elt Ideal)) (src dst : (⟨S3300000, .i32⟩ : BufTy).Contents (Elt Ideal)) :
    (⟨S100000x16, .f32⟩ : BufTy).Contents (Elt Ideal) :=
  Host.scatterAdd (F := Ideal) scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 dst)
    (Host.gather gather_S100000x16_S3300000x1_S3300000x16_1_0_n_n_0_1_116 A
      (broadcastInDim S3300000x1 ![0] bcast_S3300000_S3300000x1_0
        (select (cmpi .slt src (broadcastInDim S3300000 ![] bcast_S_S3300000 (constantI S_ 32 0#32)))
          (addi src (broadcastInDim S3300000 ![] bcast_S_S3300000 (constantI S_ 32 100000#32))) src)))

/-- One column. -/
def aggTerm1 (A : (⟨S100000x1, .f32⟩ : BufTy).Contents (Elt Ideal)) (src dst : (⟨S3300000, .i32⟩ : BufTy).Contents (Elt Ideal)) :
    (⟨S100000x1, .f32⟩ : BufTy).Contents (Elt Ideal) :=
  Host.scatterAdd (F := Ideal) scatter_S100000x1_S3300000x1_S3300000x1_1_0_0_1
    (broadcastInDim S100000x1 ![] bcast_S_S100000x1 (constant (F := Ideal) S_ .f32 0x00000000#32))
    (broadcastInDim S3300000x1 ![0] bcast_S3300000_S3300000x1_0 dst)
    (Host.gather gather_S100000x1_S3300000x1_S3300000x1_1_0_n_n_0_1_11 A
      (broadcastInDim S3300000x1 ![0] bcast_S3300000_S3300000x1_0
        (select (cmpi .slt src (broadcastInDim S3300000 ![] bcast_S_S3300000 (constantI S_ 32 0#32)))
          (addi src (broadcastInDim S3300000 ![] bcast_S_S3300000 (constantI S_ 32 100000#32))) src)))

/-! ## The first stretch: the two index vectors, the count, the comparison and the reciprocal root -/

theorem w1_src : W1 m ρ c (Proc.devRef .tc main_v3) = val_main_v3 (F := Ideal) (edges m c) := by
  show StableHlo.after hostOps0 (W0 m ρ c) (Proc.devRef .tc main_v3) = _
  after_results
  rfl

theorem w1_dst : W1 m ρ c (Proc.devRef .tc main_v6) = val_main_v6 (F := Ideal) (edges m c) := by
  show StableHlo.after hostOps0 (W0 m ρ c) (Proc.devRef .tc main_v6) = _
  after_results
  rfl

/-- The count is the accumulating scatter of ones into zeros by the destination column. -/
theorem w1_deg_form : W1 m ρ c (Proc.devRef .tc main_v10)
    = Host.scatterAdd (F := Ideal) scatter_S100000_S3300000x1_S3300000_n_0_0_1
        (broadcastInDim S100000 ![] bcast_S_S100000 (constant (F := Ideal) S_ .f32 0x00000000#32))
        (broadcastInDim S3300000x1 ![0] bcast_S3300000_S3300000x1_0 (W1 m ρ c (Proc.devRef .tc main_v6)))
        (broadcastInDim S3300000 ![] bcast_S_S3300000 (constant (F := Ideal) S_ .f32 0x3F800000#32)) := by
  show StableHlo.after hostOps0 (W0 m ρ c) (Proc.devRef .tc main_v10)
    = Host.scatterAdd (F := Ideal) scatter_S100000_S3300000x1_S3300000_n_0_0_1
        (broadcastInDim S100000 ![] bcast_S_S100000 (constant (F := Ideal) S_ .f32 0x00000000#32))
        (broadcastInDim S3300000x1 ![0] bcast_S3300000_S3300000x1_0 (StableHlo.after hostOps0 (W0 m ρ c) (Proc.devRef .tc main_v6)))
        (broadcastInDim S3300000 ![] bcast_S_S3300000 (constant (F := Ideal) S_ .f32 0x3F800000#32))
  after_results

/-- The same scatter under the two programs' names for its record, shapes and side conditions, over any column. -/
theorem deg_names (Y : IVec S3300000 32) :
    Host.scatterAdd (F := Ideal) scatter_S100000_S3300000x1_S3300000_n_0_0_1
        (broadcastInDim S100000 ![] bcast_S_S100000 (constant (F := Ideal) S_ .f32 0x00000000#32))
        (broadcastInDim S3300000x1 ![0] bcast_S3300000_S3300000x1_0 Y)
        (broadcastInDim S3300000 ![] bcast_S_S3300000 (constant (F := Ideal) S_ .f32 0x3F800000#32))
    = Host.scatterAdd (F := Ideal) Cert.ReferenceIdeal.scatter_S100000_S3300000x1_S3300000_n_0_0_1
        (broadcastInDim Cert.ReferenceIdeal.S100000 ![] Cert.ReferenceIdeal.Gen.bcast_S_S100000 (constant (F := Ideal) Cert.ReferenceIdeal.S_ .f32 0x00000000#32))
        (broadcastInDim Cert.ReferenceIdeal.S3300000x1 ![0] Cert.ReferenceIdeal.Gen.bcast_S3300000_S3300000x1_0 Y)
        (broadcastInDim Cert.ReferenceIdeal.S3300000 ![] Cert.ReferenceIdeal.Gen.bcast_S_S3300000 (constant (F := Ideal) Cert.ReferenceIdeal.S_ .f32 0x3F800000#32)) := by
  congr 1

theorem w1_deg : W1 m ρ c (Proc.devRef .tc main_v10) = val_main_v10 (F := Ideal) (edges m c) := by
  rw [w1_deg_form, w1_dst]
  unfold val_main_v10 val_main_v9 val_main_v8 val_main_v7 val_main_cst val_main_cst_0
  exact deg_names _

theorem w1_cmp_form : W1 m ρ c (Proc.devRef .tc main_v12)
    = cmpf (F := Ideal) .ogt (W1 m ρ c (Proc.devRef .tc main_v10))
        (broadcastInDim S100000 ![] bcast_S_S100000 (constant (F := Ideal) S_ .f32 0x00000000#32)) := by
  show StableHlo.after hostOps0 (W0 m ρ c) (Proc.devRef .tc main_v12)
    = cmpf (F := Ideal) .ogt (StableHlo.after hostOps0 (W0 m ρ c) (Proc.devRef .tc main_v10))
        (broadcastInDim S100000 ![] bcast_S_S100000 (constant (F := Ideal) S_ .f32 0x00000000#32))
  after_results

theorem w1_rsq_form : W1 m ρ c (Proc.devRef .tc main_v13) = Host.rsqrt (F := Ideal) (s := S100000) (φ := .f32) (W1 m ρ c (Proc.devRef .tc main_v10)) := by
  show StableHlo.after hostOps0 (W0 m ρ c) (Proc.devRef .tc main_v13) = Host.rsqrt (F := Ideal) (s := S100000) (φ := .f32) (StableHlo.after hostOps0 (W0 m ρ c) (Proc.devRef .tc main_v10))
  after_results

theorem w1_zero : W1 m ρ c (Proc.devRef .tc main_cst_2) = constant (F := Ideal) S_ .f32 0x00000000#32 := by
  show StableHlo.after hostOps0 (W0 m ρ c) (Proc.devRef .tc main_cst_2) = _
  after_results

/-! ## The second stretch: the weight -/

theorem w2_dis_form : W2 m ρ c (Proc.devRef .tc main_v14)
    = select (W1 m ρ c (Proc.devRef .tc main_v12)) (W1 m ρ c (Proc.devRef .tc main_v13))
        (broadcastInDim S100000 ![] bcast_S_S100000 (id (W1 m ρ c (Proc.devRef .tc main_cst_2)))) := by
  show StableHlo.after hostOps0_1 (W1 m ρ c) (Proc.devRef .tc main_v14) = _
  generalize W1 m ρ c = V
  after_results
  rfl

/-- The weight's small tree under the two programs' names, over any count. -/
theorem dis_names (D : FVec Ideal S100000 .f32) :
    select (cmpf .ogt D (broadcastInDim S100000 ![] bcast_S_S100000 (constant S_ .f32 0x00000000#32)))
      (Host.rsqrt D) (broadcastInDim S100000 ![] bcast_S_S100000 (id (constant S_ .f32 0x00000000#32)))
    = select (cmpf .ogt D (broadcastInDim Cert.ReferenceIdeal.S100000 ![] Cert.ReferenceIdeal.Gen.bcast_S_S100000 (constant Cert.ReferenceIdeal.S_ .f32 0x00000000#32)))
      (Host.rsqrt D) (broadcastInDim Cert.ReferenceIdeal.S100000 ![] Cert.ReferenceIdeal.Gen.bcast_S_S100000 (id (constant Cert.ReferenceIdeal.S_ .f32 0x00000000#32))) := rfl

theorem w2_dis : W2 m ρ c (Proc.devRef .tc main_v14) = val_main_v14 (F := Ideal) (edges m c) := by
  rw [w2_dis_form, w1_cmp_form, w1_rsq_form, w1_zero, w1_deg]
  unfold val_main_v14 val_main_v12 val_main_v13 val_main_call0_v1 val_main_call0_v0 val_main_cst_2 val_main_v11 val_main_cst_1
  generalize val_main_v10 (F := Ideal) (edges m c) = D
  exact dis_names D

theorem w2_keep_main_v3 : W2 m ρ c (Proc.devRef .tc main_v3) = W1 m ρ c (Proc.devRef .tc main_v3) := by
  show StableHlo.after hostOps0_1 (W1 m ρ c) (Proc.devRef .tc main_v3) = _
  generalize W1 m ρ c = V
  after_results
theorem w2_keep_main_v6 : W2 m ρ c (Proc.devRef .tc main_v6) = W1 m ρ c (Proc.devRef .tc main_v6) := by
  show StableHlo.after hostOps0_1 (W1 m ρ c) (Proc.devRef .tc main_v6) = _
  generalize W1 m ρ c = V
  after_results
theorem w3_keep_main_v3 : W3 m ρ c (Proc.devRef .tc main_v3) = W2 m ρ c (Proc.devRef .tc main_v3) := by
  show StableHlo.after hostOps0_2 (W2 m ρ c) (Proc.devRef .tc main_v3) = _
  generalize W2 m ρ c = V
  after_results
theorem w3_keep_main_v6 : W3 m ρ c (Proc.devRef .tc main_v6) = W2 m ρ c (Proc.devRef .tc main_v6) := by
  show StableHlo.after hostOps0_2 (W2 m ρ c) (Proc.devRef .tc main_v6) = _
  generalize W2 m ρ c = V
  after_results
theorem w3_keep_main_v14 : W3 m ρ c (Proc.devRef .tc main_v14) = W2 m ρ c (Proc.devRef .tc main_v14) := by
  show StableHlo.after hostOps0_2 (W2 m ρ c) (Proc.devRef .tc main_v14) = _
  generalize W2 m ρ c = V
  after_results

/-! ## Region 0's entry -/

theorem w3_src : W3 m ρ c (Proc.devRef .tc main_v3) = val_main_v3 (F := Ideal) (edges m c) :=
  (w3_keep_main_v3 m ρ c).trans ((w2_keep_main_v3 m ρ c).trans (w1_src m ρ c))
theorem w3_dst : W3 m ρ c (Proc.devRef .tc main_v6) = val_main_v6 (F := Ideal) (edges m c) :=
  (w3_keep_main_v6 m ρ c).trans ((w2_keep_main_v6 m ρ c).trans (w1_dst m ρ c))
theorem w3_dis : W3 m ρ c (Proc.devRef .tc main_v14) = val_main_v14 (F := Ideal) (edges m c) :=
  (w3_keep_main_v14 m ρ c).trans (w2_dis m ρ c)

/-- The weight as a column. -/
theorem w3_discol : W3 m ρ c (Proc.devRef .tc main_v15)
    = shapeCast S100000x1 (W2 m ρ c (Proc.devRef .tc main_v14)) shapeCasts_S100000_S100000x1 := by
  show StableHlo.after hostOps0_2 (W2 m ρ c) (Proc.devRef .tc main_v15) = _
  generalize W2 m ρ c = V
  after_results
  rfl

theorem w3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem w3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem w3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
theorem w3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem w3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

/-! ## Region 0: the features times the first weight matrix, each row scaled by its node's weight -/

theorem w4_out : W4 m ρ c (Proc.devRef .tc main_v16)
    = scaledProduct0 (m ((c : Thread nD τ).loc main_arg0)) (m ((c : Thread nD τ).loc main_arg2))
        (shapeCast S100000x1 (val_main_v14 (F := Ideal) (edges m c)) shapeCasts_S100000_S100000x1) := by
  refine (W4_arr m ρ c 3).trans ((output0_eq (V3 m ρ) c).trans ?_)
  show scaledProduct0 (W3 m ρ c (Proc.devRef .tc main_arg0)) (W3 m ρ c (Proc.devRef .tc main_arg2)) (W3 m ρ c (Proc.devRef .tc main_v15)) = _
  rw [w3_arg0, w3_arg2, w3_discol, w2_dis]

theorem w4_v3 : W4 m ρ c (Proc.devRef .tc main_v3) = val_main_v3 (F := Ideal) (edges m c) :=
  (W4_of_ne m ρ c main_v3 (by decide)).trans (w3_src m ρ c)
theorem w4_v6 : W4 m ρ c (Proc.devRef .tc main_v6) = val_main_v6 (F := Ideal) (edges m c) :=
  (W4_of_ne m ρ c main_v6 (by decide)).trans (w3_dst m ρ c)
theorem w4_v14 : W4 m ρ c (Proc.devRef .tc main_v14) = val_main_v14 (F := Ideal) (edges m c) :=
  (W4_of_ne m ρ c main_v14 (by decide)).trans (w3_dis m ρ c)
theorem w4_arg3 : W4 m ρ c (Proc.devRef .tc main_arg3) = m ((c : Thread nD τ).loc main_arg3) :=
  (W4_of_ne m ρ c main_arg3 (by decide)).trans (w3_arg3 m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)

/-! ## The stretch before region 1 -/

theorem w5_agg : W5 m ρ c (Proc.devRef .tc main_v26)
    = aggTerm16 (W4 m ρ c (Proc.devRef .tc main_v16)) (W4 m ρ c (Proc.devRef .tc main_v3)) (W4 m ρ c (Proc.devRef .tc main_v6)) := by
  show StableHlo.after hostOps1 (W4 m ρ c) (Proc.devRef .tc main_v26) = _
  generalize W4 m ρ c = V
  unfold aggTerm16
  after_results
  try rfl

theorem w5_discol : W5 m ρ c (Proc.devRef .tc main_v27) = shapeCast S100000x1 (W4 m ρ c (Proc.devRef .tc main_v14)) shapeCasts_S100000_S100000x1 := by
  show StableHlo.after hostOps1 (W4 m ρ c) (Proc.devRef .tc main_v27) = _
  generalize W4 m ρ c = V
  after_results
  try rfl

theorem w5_bias : W5 m ρ c (Proc.devRef .tc main_v28) = shapeCast S1x16 (W4 m ρ c (Proc.devRef .tc main_arg3)) shapeCasts_S16_S1x16 := by
  show StableHlo.after hostOps1 (W4 m ρ c) (Proc.devRef .tc main_v28) = _
  generalize W4 m ρ c = V
  after_results
  try rfl

theorem w5_keep_v3 : W5 m ρ c (Proc.devRef .tc main_v3) = W4 m ρ c (Proc.devRef .tc main_v3) := by
  show StableHlo.after hostOps1 (W4 m ρ c) (Proc.devRef .tc main_v3) = _
  generalize W4 m ρ c = V
  after_results
theorem w5_v3 : W5 m ρ c (Proc.devRef .tc main_v3) = val_main_v3 (F := Ideal) (edges m c) := (w5_keep_v3 m ρ c).trans (w4_v3 m ρ c)
theorem w5_keep_v6 : W5 m ρ c (Proc.devRef .tc main_v6) = W4 m ρ c (Proc.devRef .tc main_v6) := by
  show StableHlo.after hostOps1 (W4 m ρ c) (Proc.devRef .tc main_v6) = _
  generalize W4 m ρ c = V
  after_results
theorem w5_v6 : W5 m ρ c (Proc.devRef .tc main_v6) = val_main_v6 (F := Ideal) (edges m c) := (w5_keep_v6 m ρ c).trans (w4_v6 m ρ c)
theorem w5_keep_v14 : W5 m ρ c (Proc.devRef .tc main_v14) = W4 m ρ c (Proc.devRef .tc main_v14) := by
  show StableHlo.after hostOps1 (W4 m ρ c) (Proc.devRef .tc main_v14) = _
  generalize W4 m ρ c = V
  after_results
theorem w5_v14 : W5 m ρ c (Proc.devRef .tc main_v14) = val_main_v14 (F := Ideal) (edges m c) := (w5_keep_v14 m ρ c).trans (w4_v14 m ρ c)
theorem w5_keep_arg4 : W5 m ρ c (Proc.devRef .tc main_arg4) = W4 m ρ c (Proc.devRef .tc main_arg4) := by
  show StableHlo.after hostOps1 (W4 m ρ c) (Proc.devRef .tc main_arg4) = _
  generalize W4 m ρ c = V
  after_results
theorem w5_arg4 : W5 m ρ c (Proc.devRef .tc main_arg4) = m ((c : Thread nD τ).loc main_arg4) := (w5_keep_arg4 m ρ c).trans (w4_arg4 m ρ c)
theorem w5_keep_arg5 : W5 m ρ c (Proc.devRef .tc main_arg5) = W4 m ρ c (Proc.devRef .tc main_arg5) := by
  show StableHlo.after hostOps1 (W4 m ρ c) (Proc.devRef .tc main_arg5) = _
  generalize W4 m ρ c = V
  after_results
theorem w5_arg5 : W5 m ρ c (Proc.devRef .tc main_arg5) = m ((c : Thread nD τ).loc main_arg5) := (w5_keep_arg5 m ρ c).trans (w4_arg5 m ρ c)

/-! ## Region 1: the neighbourhood sum scaled by the node's weight, plus the bias, or zero if that is larger -/

theorem w6_out : W6 m ρ c (Proc.devRef .tc main_v29)
    = scaledRowsPlusBiasOrZero (W5 m ρ c (Proc.devRef .tc main_v26)) (W5 m ρ c (Proc.devRef .tc main_v27)) (W5 m ρ c (Proc.devRef .tc main_v28)) :=
  (W6_arr m ρ c 3).trans (resultArray1 (V5 m ρ) c)

theorem w6_v3 : W6 m ρ c (Proc.devRef .tc main_v3) = val_main_v3 (F := Ideal) (edges m c) :=
  (W6_of_ne m ρ c main_v3 (by decide)).trans (w5_v3 m ρ c)
theorem w6_v6 : W6 m ρ c (Proc.devRef .tc main_v6) = val_main_v6 (F := Ideal) (edges m c) :=
  (W6_of_ne m ρ c main_v6 (by decide)).trans (w5_v6 m ρ c)
theorem w6_v14 : W6 m ρ c (Proc.devRef .tc main_v14) = val_main_v14 (F := Ideal) (edges m c) :=
  (W6_of_ne m ρ c main_v14 (by decide)).trans (w5_v14 m ρ c)
theorem w6_arg4 : W6 m ρ c (Proc.devRef .tc main_arg4) = m ((c : Thread nD τ).loc main_arg4) :=
  (W6_of_ne m ρ c main_arg4 (by decide)).trans (w5_arg4 m ρ c)
theorem w6_arg5 : W6 m ρ c (Proc.devRef .tc main_arg5) = m ((c : Thread nD τ).loc main_arg5) :=
  (W6_of_ne m ρ c main_arg5 (by decide)).trans (w5_arg5 m ρ c)

/-! ## The stretch before region 2 -/

theorem w7_discol : W7 m ρ c (Proc.devRef .tc main_v30) = shapeCast S100000x1 (W6 m ρ c (Proc.devRef .tc main_v14)) shapeCasts_S100000_S100000x1 := by
  show StableHlo.after hostOps2 (W6 m ρ c) (Proc.devRef .tc main_v30) = _
  generalize W6 m ρ c = V
  after_results
  try rfl

theorem w7_keep_v29 : W7 m ρ c (Proc.devRef .tc main_v29) = W6 m ρ c (Proc.devRef .tc main_v29) := by
  show StableHlo.after hostOps2 (W6 m ρ c) (Proc.devRef .tc main_v29) = _
  generalize W6 m ρ c = V
  after_results
theorem w7_keep_v3 : W7 m ρ c (Proc.devRef .tc main_v3) = W6 m ρ c (Proc.devRef .tc main_v3) := by
  show StableHlo.after hostOps2 (W6 m ρ c) (Proc.devRef .tc main_v3) = _
  generalize W6 m ρ c = V
  after_results
theorem w7_v3 : W7 m ρ c (Proc.devRef .tc main_v3) = val_main_v3 (F := Ideal) (edges m c) := (w7_keep_v3 m ρ c).trans (w6_v3 m ρ c)
theorem w7_keep_v6 : W7 m ρ c (Proc.devRef .tc main_v6) = W6 m ρ c (Proc.devRef .tc main_v6) := by
  show StableHlo.after hostOps2 (W6 m ρ c) (Proc.devRef .tc main_v6) = _
  generalize W6 m ρ c = V
  after_results
theorem w7_v6 : W7 m ρ c (Proc.devRef .tc main_v6) = val_main_v6 (F := Ideal) (edges m c) := (w7_keep_v6 m ρ c).trans (w6_v6 m ρ c)
theorem w7_keep_v14 : W7 m ρ c (Proc.devRef .tc main_v14) = W6 m ρ c (Proc.devRef .tc main_v14) := by
  show StableHlo.after hostOps2 (W6 m ρ c) (Proc.devRef .tc main_v14) = _
  generalize W6 m ρ c = V
  after_results
theorem w7_v14 : W7 m ρ c (Proc.devRef .tc main_v14) = val_main_v14 (F := Ideal) (edges m c) := (w7_keep_v14 m ρ c).trans (w6_v14 m ρ c)
theorem w7_keep_arg4 : W7 m ρ c (Proc.devRef .tc main_arg4) = W6 m ρ c (Proc.devRef .tc main_arg4) := by
  show StableHlo.after hostOps2 (W6 m ρ c) (Proc.devRef .tc main_arg4) = _
  generalize W6 m ρ c = V
  after_results
theorem w7_arg4 : W7 m ρ c (Proc.devRef .tc main_arg4) = m ((c : Thread nD τ).loc main_arg4) := (w7_keep_arg4 m ρ c).trans (w6_arg4 m ρ c)
theorem w7_keep_arg5 : W7 m ρ c (Proc.devRef .tc main_arg5) = W6 m ρ c (Proc.devRef .tc main_arg5) := by
  show StableHlo.after hostOps2 (W6 m ρ c) (Proc.devRef .tc main_arg5) = _
  generalize W6 m ρ c = V
  after_results
theorem w7_arg5 : W7 m ρ c (Proc.devRef .tc main_arg5) = m ((c : Thread nD τ).loc main_arg5) := (w7_keep_arg5 m ρ c).trans (w6_arg5 m ρ c)

/-! ## Region 2: the first layer's output times the second weight matrix, each row scaled by its node's weight -/

theorem w8_out : W8 m ρ c (Proc.devRef .tc main_v31)
    = scaledProduct2 (W7 m ρ c (Proc.devRef .tc main_v29)) (W7 m ρ c (Proc.devRef .tc main_arg4)) (W7 m ρ c (Proc.devRef .tc main_v30)) :=
  (W8_arr m ρ c 3).trans (output2_eq (V7 m ρ) c)

theorem w8_v3 : W8 m ρ c (Proc.devRef .tc main_v3) = val_main_v3 (F := Ideal) (edges m c) :=
  (W8_of_ne m ρ c main_v3 (by decide)).trans (w7_v3 m ρ c)
theorem w8_v6 : W8 m ρ c (Proc.devRef .tc main_v6) = val_main_v6 (F := Ideal) (edges m c) :=
  (W8_of_ne m ρ c main_v6 (by decide)).trans (w7_v6 m ρ c)
theorem w8_v14 : W8 m ρ c (Proc.devRef .tc main_v14) = val_main_v14 (F := Ideal) (edges m c) :=
  (W8_of_ne m ρ c main_v14 (by decide)).trans (w7_v14 m ρ c)
theorem w8_arg5 : W8 m ρ c (Proc.devRef .tc main_arg5) = m ((c : Thread nD τ).loc main_arg5) :=
  (W8_of_ne m ρ c main_arg5 (by decide)).trans (w7_arg5 m ρ c)

/-! ## The stretch before region 3 -/

theorem w9_agg : W9 m ρ c (Proc.devRef .tc main_v41)
    = aggTerm1 (W8 m ρ c (Proc.devRef .tc main_v31)) (W8 m ρ c (Proc.devRef .tc main_v3)) (W8 m ρ c (Proc.devRef .tc main_v6)) := by
  show StableHlo.after hostOps3 (W8 m ρ c) (Proc.devRef .tc main_v41) = _
  generalize W8 m ρ c = V
  unfold aggTerm1
  after_results
  try rfl

theorem w9_discol : W9 m ρ c (Proc.devRef .tc main_v42) = shapeCast S100000x1 (W8 m ρ c (Proc.devRef .tc main_v14)) shapeCasts_S100000_S100000x1 := by
  show StableHlo.after hostOps3 (W8 m ρ c) (Proc.devRef .tc main_v42) = _
  generalize W8 m ρ c = V
  after_results
  try rfl

theorem w9_bias : W9 m ρ c (Proc.devRef .tc main_v43) = shapeCast S1x1 (W8 m ρ c (Proc.devRef .tc main_arg5)) shapeCasts_S1_S1x1 := by
  show StableHlo.after hostOps3 (W8 m ρ c) (Proc.devRef .tc main_v43) = _
  generalize W8 m ρ c = V
  after_results
  try rfl

/-! ## Region 3: the second neighbourhood sum scaled by the node's weight, plus the bias -/

theorem w10_out : W10 m ρ c (Proc.devRef .tc main_v44)
    = scaledColumnPlusBias (W9 m ρ c (Proc.devRef .tc main_v41)) (W9 m ρ c (Proc.devRef .tc main_v42)) (W9 m ρ c (Proc.devRef .tc main_v43)) :=
  (W10_arr m ρ c 3).trans (resultArray3 (V9 m ρ) c)

/-! ## The result array as one term of the argument arrays -/

/-- The weight column both layers use. -/
abbrev disCol : (⟨S100000x1, .f32⟩ : BufTy).Contents (Elt Ideal) :=
  shapeCast S100000x1 (val_main_v14 (F := Ideal) (edges m c)) shapeCasts_S100000_S100000x1

/-- THE KERNEL PROGRAM'S RESULT: a row-scaled product, a neighbourhood sum, scale-and-bias-or-zero, and the same three
    once more without the zero. -/
theorem result_array : W10 m ρ c (Proc.devRef .tc main_v44)
    = scaledColumnPlusBias
        (aggTerm1
          (scaledProduct2
            (scaledRowsPlusBiasOrZero
              (aggTerm16 (scaledProduct0 (m ((c : Thread nD τ).loc main_arg0)) (m ((c : Thread nD τ).loc main_arg2)) (disCol m c))
                (val_main_v3 (F := Ideal) (edges m c)) (val_main_v6 (F := Ideal) (edges m c)))
              (disCol m c) (shapeCast S1x16 (m ((c : Thread nD τ).loc main_arg3)) shapeCasts_S16_S1x16))
            (m ((c : Thread nD τ).loc main_arg4)) (disCol m c))
          (val_main_v3 (F := Ideal) (edges m c)) (val_main_v6 (F := Ideal) (edges m c)))
        (disCol m c) (shapeCast S1x1 (m ((c : Thread nD τ).loc main_arg5)) shapeCasts_S1_S1x1) := by
  rw [w10_out, w9_agg, w9_discol, w9_bias, w8_out, w8_v3, w8_v6, w8_v14, w8_arg5, w7_keep_v29, w7_arg4, w7_discol, w6_v14,
    w6_out, w5_agg, w5_discol, w5_bias, w4_out, w4_v3, w4_v6, w4_v14, w4_arg3]

end Cert.KernelIdeal.HostValue

end
-- ==== Proof.LibColumnReshape.lean ====
/-
  A vector recast as a one-column matrix, read at an index: an `[a]` array cast to `[a, 1]` reads, at `(p, u)`, the
  operand at `p`, whatever the unit coordinate `u` (row-major positions: `p · 1 + 0 = p`). The companion of the library's
  `shapeCast_a_1a_apply` (one row); extent general.
-/
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.KernelStretch.lean ====
/-
  A gather of rows by the wrapped source column followed by an accumulating scatter by the raw destination column,
  read at an entry.

  Between its rounds the computation reads, for every edge, the row of an array at the edge's source node and adds
  it into the row of the node the edge lands on, starting from zero. Read at the entry (p, k) this is zero plus the
  sum, over the edges that land on p, of the array's entry at the edge's source node and column k: the gather reads
  the row its clamped start index names, and the scatter adds into an entry the updates of the rows whose scatter
  index is the entry's row. The index columns are broadcasts of vectors, which only rename coordinates, so the
  entries they read are the ones that define which edges land on a node and which node an edge reads.

  Three layout facts follow: a vector recast as a one-column or a one-row matrix reads the vector's entry.
-/
import proofs.«149689_j18133351924184_2_alg».proof.Proof.Shared
import proofs.«149689_j18133351924184_2_alg».proof.Proof.Gen.KernelIdeal
import proofs.«149689_j18133351924184_2_alg».proof.Proof.LibScatterRows
import proofs.«149689_j18133351924184_2_alg».proof.Proof.LibGatherRows
import proofs.«149689_j18133351924184_2_alg».proof.Proof.LibColumnReshape
import Idealize.ShloMosaic.Lib.ValueLayout
import Idealize.ShloMosaic.PureOps.Ideal.Laws

noncomputable section

namespace Cert.KernelIdeal.StretchValue

open Cert.KernelIdeal Cert.KernelIdeal.Gen Cert.Gcn Idealize.ShloMosaic Idealize.ShloMosaic.ValueIdx
open Cert.ReferenceIdeal.ReadP (val_main_v3 val_main_v6 val_main_v9 val_main_v14 val_main_v21)

/-! ## The dimension numbers are the row forms -/

/-- The gather of rows of sixteen entries. -/
theorem gatherRows16_eq :
    gather_S100000x16_S3300000x1_S3300000x16_1_0_n_n_0_1_116
      = LibGatherRows.rowsDims 100000 3300000 16 Facts₀.gather_S100000x16_S3300000x1_S3300000x16_1_0_n_n_0_1_116_wf := rfl

/-- The gather of rows of one entry. -/
theorem gatherRows1_eq :
    gather_S100000x1_S3300000x1_S3300000x1_1_0_n_n_0_1_11
      = LibGatherRows.rowsDims 100000 3300000 1 Facts₀.gather_S100000x1_S3300000x1_S3300000x1_1_0_n_n_0_1_11_wf := rfl

/-- The accumulating scatter of rows of sixteen entries. -/
theorem scatterRows16_eq :
    scatter_S100000x16_S3300000x1_S3300000x16_1_0_0_1
      = LibScatterRows.rowsDims 100000 3300000 16 Facts₀.scatter_S100000x16_S3300000x1_S3300000x16_1_0_0_1_wf := rfl

/-- The accumulating scatter of rows of one entry. -/
theorem scatterRows1_eq :
    scatter_S100000x1_S3300000x1_S3300000x1_1_0_0_1
      = LibScatterRows.rowsDims 100000 3300000 1 Facts₀.scatter_S100000x1_S3300000x1_S3300000x1_1_0_0_1_wf := rfl

/-! ## Broadcasts read at an entry -/

variable {α : Type}

/-- A vector over the edges broadcast to a one-column matrix reads, at row e, the vector's entry e. -/
theorem col_at (h : S3300000.BroadcastsInDim S3300000x1 (![0] : Fin 1 → Fin S3300000x1.rank))
    (y : S3300000.Idx → α) (e : Fin 3300000) (u : Fin 1) :
    broadcastInDim S3300000x1 ![0] h y (ix2 e u) = y (ix1 e) :=
  broadcastInDim_apply _ h y (ix2 e u) (ix1 e) (fun a => match a with
    | ⟨0, _⟩ => by show e.val = if (3300000 : Nat) = 1 then 0 else e.val; rw [if_neg (by decide)])

/-- A scalar broadcast over the edges reads the scalar. -/
theorem splatE_at (h : S_.BroadcastsInDim S3300000 (![] : Fin 0 → Fin S3300000.rank))
    (c : S_.Idx → α) (e : Fin 3300000) : broadcastInDim S3300000 ![] h c (ix1 e) = c ix0 :=
  broadcastInDim_apply _ h c (ix1 e) ix0 (fun a => a.elim0)

/-- A scalar broadcast over a node matrix of sixteen columns reads the scalar. -/
theorem splat16_at (h : S_.BroadcastsInDim S100000x16 (![] : Fin 0 → Fin S100000x16.rank))
    (c : S_.Idx → α) (p : Fin 100000) (k : Fin 16) : broadcastInDim S100000x16 ![] h c (ix2 p k) = c ix0 :=
  broadcastInDim_apply _ h c (ix2 p k) ix0 (fun a => a.elim0)

/-- A scalar broadcast over a node matrix of one column reads the scalar. -/
theorem splat1_at (h : S_.BroadcastsInDim S100000x1 (![] : Fin 0 → Fin S100000x1.rank))
    (c : S_.Idx → α) (p : Fin 100000) (q : Fin 1) : broadcastInDim S100000x1 ![] h c (ix2 p q) = c ix0 :=
  broadcastInDim_apply _ h c (ix2 p q) ix0 (fun a => a.elim0)

/-! ## The two index columns at an edge -/

/-- The raw destination column at edge e is the entry that decides on which node the edge lands. -/
theorem dstcol_at (x1 : EdgeArr) (e : Fin 3300000) :
    broadcastInDim S3300000x1 ![0] Facts₀.bcast_S3300000_S3300000x1_0 (val_main_v6 (F := Ideal) x1) (ix2 e (0 : Fin 1))
      = val_main_v9 (F := Ideal) x1 (ix2 e (0 : Fin 1)) := by
  rw [col_at, Cert.ReferenceIdeal.ReadP.val_main_v9_apply]
  refine congrArg (val_main_v6 (F := Ideal) x1) ?_
  funext a; match a with | ⟨0, _⟩ => rfl

/-- The wrapped source column at edge e is the entry that decides which node's row the edge reads. -/
theorem srccol_at (x1 : EdgeArr) (e : Fin 3300000) :
    broadcastInDim S3300000x1 ![0] Facts₀.bcast_S3300000_S3300000x1_0
        (select (cmpi .slt (val_main_v3 (F := Ideal) x1) (broadcastInDim S3300000 ![] Facts₀.bcast_S_S3300000 (constantI S_ 32 0#32)))
          (addi (val_main_v3 (F := Ideal) x1) (broadcastInDim S3300000 ![] Facts₀.bcast_S_S3300000 (constantI S_ 32 100000#32)))
          (val_main_v3 (F := Ideal) x1)) (ix2 e (0 : Fin 1))
      = val_main_v21 (F := Ideal) x1 (ix2 e (0 : Fin 1)) := by
  have hi : Cert.ReferenceIdeal.ReadP.idx_main_v21 (ix2 e (0 : Fin 1)) = ix1 e := by
    funext a; match a with | ⟨0, _⟩ => rfl
  rw [col_at, Cert.ReferenceIdeal.ReadP.val_main_v21_apply, hi, Cert.ReferenceIdeal.ReadP.val_main_v20_apply,
    Cert.ReferenceIdeal.ReadP.val_main_v17_apply, Cert.ReferenceIdeal.ReadP.val_main_v19_apply,
    Cert.ReferenceIdeal.ReadP.val_main_v16_apply, Cert.ReferenceIdeal.ReadP.val_main_v18_apply,
    Cert.ReferenceIdeal.ReadP.val_main_c_apply, Cert.ReferenceIdeal.ReadP.val_main_c_3_apply]
  show Scalar.select (IntOp.cmpi .slt (val_main_v3 (F := Ideal) x1 (ix1 e))
        (broadcastInDim S3300000 ![] Facts₀.bcast_S_S3300000 (constantI S_ 32 0#32) (ix1 e)))
      (IntOp.addi (val_main_v3 (F := Ideal) x1 (ix1 e))
        (broadcastInDim S3300000 ![] Facts₀.bcast_S_S3300000 (constantI S_ 32 100000#32) (ix1 e)))
      (val_main_v3 (F := Ideal) x1 (ix1 e)) = _
  rw [splatE_at, splatE_at]
  rfl

/-! ## The gather followed by the scatter, at an entry -/

/-- The zero word is the extended real zero. -/
theorem zero_at : constant (F := Ideal) S_ .f32 0x00000000#32 ix0 = (0 : EReal) := Ideal.ofBits_zero_f32

/-- The composite for any row length D and any operands that agree, entry by entry, with the data that defines where an
    edge lands and which node it reads: the scatter's start is zero, its index column reads the raw destination
    entries, the gather's index column reads the wrapped source entries. -/
theorem stretch_gen {D : ℕ} (wfs) (wfg) (A : FVec Ideal ⟨2, ![100000, D]⟩ .f32) (x1 : EdgeArr)
    (z : FVec Ideal ⟨2, ![100000, D]⟩ .f32) (dst src : IVec ⟨2, ![3300000, 1]⟩ 32)
    (hz : ∀ (p : Fin 100000) (k : Fin D), z (ix2 p k) = 0)
    (hd : ∀ e : Fin 3300000, dst (ix2 e (0 : Fin 1)) = val_main_v9 (F := Ideal) x1 (ix2 e (0 : Fin 1)))
    (hs : ∀ e : Fin 3300000, src (ix2 e (0 : Fin 1)) = val_main_v21 (F := Ideal) x1 (ix2 e (0 : Fin 1)))
    (p : Fin 100000) (k : Fin D) :
    Host.scatterAdd (F := Ideal) (LibScatterRows.rowsDims 100000 3300000 D wfs) z dst
        (Host.gather (LibGatherRows.rowsDims 100000 3300000 D wfg) A src) (ix2 p k)
      = 0 + ∑ e : Fin 3300000, if lands x1 e p then A (ix2 (gsrc x1 e) k) else 0 := by
  rw [LibScatterRows.scatterAdd_rows_apply, hz]
  refine congrArg (fun s => (0 : EReal) + s) (Finset.sum_congr rfl fun e _ => ?_)
  rw [hd, LibGatherRows.gather_rows_apply (by omega)]
  have hg : (⟨min (src (ix2 e (0 : Fin 1))).toInt.toNat (100000 - 1), by omega⟩ : Fin 100000) = gsrc x1 e :=
    Fin.ext (by
      show min (src (ix2 e (0 : Fin 1))).toInt.toNat (100000 - 1)
        = min (val_main_v21 (F := Ideal) x1 (ix2 e (0 : Fin 1))).toInt.toNat (100000 - 1)
      rw [hs])
  rw [hg]

/-- Rows of sixteen entries: zero plus, over the edges that land on p, the array's entry at the edge's source node. -/
theorem stretch16_at (A : (⟨S100000x16, .f32⟩ : BufTy).Contents (Elt Ideal)) (x1 : EdgeArr) (p : Fin 100000) (k : Fin 16) :
    Host.scatterAdd (F := Ideal) scatter_S100000x16_S3300000x1_S3300000x16_1_0_0_1
      (broadcastInDim S100000x16 ![] Facts₀.bcast_S_S100000x16 (constant (F := Ideal) S_ .f32 0x00000000#32))
      (broadcastInDim S3300000x1 ![0] Facts₀.bcast_S3300000_S3300000x1_0 (val_main_v6 (F := Ideal) x1))
      (Host.gather gather_S100000x16_S3300000x1_S3300000x16_1_0_n_n_0_1_116 A
        (broadcastInDim S3300000x1 ![0] Facts₀.bcast_S3300000_S3300000x1_0
          (select (cmpi .slt (val_main_v3 (F := Ideal) x1) (broadcastInDim S3300000 ![] Facts₀.bcast_S_S3300000 (constantI S_ 32 0#32)))
            (addi (val_main_v3 (F := Ideal) x1) (broadcastInDim S3300000 ![] Facts₀.bcast_S_S3300000 (constantI S_ 32 100000#32)))
            (val_main_v3 (F := Ideal) x1)))) (ix2 p k)
      = 0 + ∑ e : Fin 3300000, if lands x1 e p then A (ix2 (gsrc x1 e) k) else 0 := by
  rw [scatterRows16_eq, gatherRows16_eq]
  exact stretch_gen _ _ A x1 _ _ _ (fun p k => (splat16_at _ _ p k).trans zero_at) (dstcol_at x1) (srccol_at x1) p k

/-- Rows of one entry: the same. -/
theorem stretch1_at (A : (⟨S100000x1, .f32⟩ : BufTy).Contents (Elt Ideal)) (x1 : EdgeArr) (p : Fin 100000) (q : Fin 1) :
    Host.scatterAdd (F := Ideal) scatter_S100000x1_S3300000x1_S3300000x1_1_0_0_1
      (broadcastInDim S100000x1 ![] Facts₀.bcast_S_S100000x1 (constant (F := Ideal) S_ .f32 0x00000000#32))
      (broadcastInDim S3300000x1 ![0] Facts₀.bcast_S3300000_S3300000x1_0 (val_main_v6 (F := Ideal) x1))
      (Host.gather gather_S100000x1_S3300000x1_S3300000x1_1_0_n_n_0_1_11 A
        (broadcastInDim S3300000x1 ![0] Facts₀.bcast_S3300000_S3300000x1_0
          (select (cmpi .slt (val_main_v3 (F := Ideal) x1) (broadcastInDim S3300000 ![] Facts₀.bcast_S_S3300000 (constantI S_ 32 0#32)))
            (addi (val_main_v3 (F := Ideal) x1) (broadcastInDim S3300000 ![] Facts₀.bcast_S_S3300000 (constantI S_ 32 100000#32)))
            (val_main_v3 (F := Ideal) x1)))) (ix2 p q)
      = 0 + ∑ e : Fin 3300000, if lands x1 e p then A (ix2 (gsrc x1 e) q) else 0 := by
  rw [scatterRows1_eq, gatherRows1_eq]
  exact stretch_gen _ _ A x1 _ _ _ (fun p q => (splat1_at _ _ p q).trans zero_at) (dstcol_at x1) (srccol_at x1) p q

/-! ## Three layout facts -/

/-- The node weights recast as a one-column matrix read, at row p, the weight of node p. -/
theorem discol_at (x1 : EdgeArr) (p : Fin 100000) :
    shapeCast S100000x1 (val_main_v14 (F := Ideal) x1) Facts₀.shapeCasts_S100000_S100000x1 (ix2 p (0 : Fin 1)) = disv x1 p :=
  shapeCast_a_a1_apply (val_main_v14 (F := Ideal) x1) Facts₀.shapeCasts_S100000_S100000x1 p (0 : Fin 1)

/-- The first bias recast as a one-row matrix reads, at column k, the bias's entry k. -/
theorem bias16_at (x3 : (⟨S16, .f32⟩ : BufTy).Contents (Elt Ideal)) (k : Fin 16) :
    shapeCast S1x16 x3 Facts₀.shapeCasts_S16_S1x16 (ix2 (0 : Fin 1) k) = x3 (ix1 k) :=
  shapeCast_a_1a_apply x3 Facts₀.shapeCasts_S16_S1x16 (0 : Fin 1) k

/-- The second bias recast as a one-by-one matrix reads the bias's one entry. -/
theorem bias1_at (x5 : (⟨S1, .f32⟩ : BufTy).Contents (Elt Ideal)) (q : Fin 1) :
    shapeCast S1x1 x5 Facts₀.shapeCasts_S1_S1x1 (ix2 (0 : Fin 1) q) = x5 (ix1 q) :=
  shapeCast_a_1a_apply x5 Facts₀.shapeCasts_S1_S1x1 (0 : Fin 1) q

end Cert.KernelIdeal.StretchValue

end
-- ==== Proof.KernelValue.lean ====
/-
  The kernel program's result, entry by entry, is the two-layer computation with the node weights applied outside
  the neighbourhood sums.

  The result array is a composition of six array functions: a product with the first weight matrix with every row
  scaled by its node's weight; the neighbourhood sum of those rows; that sum scaled by the collecting node's weight, plus
  the bias, or zero where that is larger; then the same three with the second weight matrix and without the zero.
  Each is read at an entry by its own lemma; substituting them into one another from the outside in gives, at row p
  and the one column, exactly the nested expression the specification writes.
-/
import proofs.«149689_j18133351924184_2_alg».proof.Proof.KernelHost
import proofs.«149689_j18133351924184_2_alg».proof.Proof.KernelStretch

set_option maxRecDepth 16384

noncomputable section

namespace Cert.KernelIdeal.EntryValue

open Cert.KernelIdeal Cert.KernelIdeal.Gen Cert.KernelIdeal.RegionValue Cert.KernelIdeal.HostValue Cert.Gcn
open Idealize.ShloMosaic Idealize.ShloMosaic.TcCoe Idealize.ShloMosaic.ValueIdx Idealize.SL.Sem
open Cert.ReferenceIdeal.ReadP (val_main_v3 val_main_v6 val_main_v14)

/-! ## The host composites and the layout casts at an entry, in this module's spelling -/

theorem agg16_at (A : (⟨S100000x16, .f32⟩ : BufTy).Contents (Elt Ideal)) (x1 : EdgeArr) (p : Fin 100000) (k : Fin 16) :
    aggTerm16 A (val_main_v3 (F := Ideal) x1) (val_main_v6 (F := Ideal) x1) (ix2 p k)
      = 0 + ∑ e : Fin 3300000, if lands x1 e p then A (ix2 (gsrc x1 e) k) else 0 :=
  Cert.KernelIdeal.StretchValue.stretch16_at A x1 p k

theorem agg1_at (A : (⟨S100000x1, .f32⟩ : BufTy).Contents (Elt Ideal)) (x1 : EdgeArr) (p : Fin 100000) (q : Fin 1) :
    aggTerm1 A (val_main_v3 (F := Ideal) x1) (val_main_v6 (F := Ideal) x1) (ix2 p q)
      = 0 + ∑ e : Fin 3300000, if lands x1 e p then A (ix2 (gsrc x1 e) q) else 0 :=
  Cert.KernelIdeal.StretchValue.stretch1_at A x1 p q

theorem weightCol_at (x1 : EdgeArr) (p : Fin 100000) :
    shapeCast S100000x1 (val_main_v14 (F := Ideal) x1) shapeCasts_S100000_S100000x1 (ix2 p (0 : Fin 1)) = disv x1 p :=
  Cert.KernelIdeal.StretchValue.discol_at x1 p

theorem biasRow16_at (x3 : (⟨S16, .f32⟩ : BufTy).Contents (Elt Ideal)) (k : Fin 16) :
    shapeCast S1x16 x3 shapeCasts_S16_S1x16 (ix2 (0 : Fin 1) k) = x3 (ix1 k) :=
  Cert.KernelIdeal.StretchValue.bias16_at x3 k

theorem biasRow1_at (x5 : (⟨S1, .f32⟩ : BufTy).Contents (Elt Ideal)) (q : Fin 1) :
    shapeCast S1x1 x5 shapeCasts_S1_S1x1 (ix2 (0 : Fin 1) q) = x5 (ix1 q) :=
  Cert.KernelIdeal.StretchValue.bias1_at x5 q

/-! ## The specification's definitions, unfolded one step -/

theorem lin_apply {n a b : ℕ} (X : Fin n → Fin a → EReal) (W : Fin a → Fin b → EReal) (p : Fin n) (q : Fin b) :
    lin X W p q = ∑ k, X p k * W k q := rfl

theorem layerOut_apply {n E b : ℕ} (z : EReal) (L : Fin E → Fin n → Prop) [∀ e p, Decidable (L e p)] (gs : Fin E → Fin n)
    (dis : Fin n → EReal) (H : Fin n → Fin b → EReal) (B : Fin b → EReal) (p : Fin n) (q : Fin b) :
    layerOut z L gs dis H B p q = (z + ∑ e, if L e p then H (gs e) q * dis (gs e) else 0) * dis p + B q := rfl

theorem netOut_apply {n E a b : ℕ} (zr : EReal) (L : Fin E → Fin n → Prop) [∀ e p, Decidable (L e p)] (gs : Fin E → Fin n)
    (dis : Fin n → EReal) (X : Fin n → Fin a → EReal) (W1 : Fin a → Fin b → EReal) (B1 : Fin b → EReal)
    (W2 : Fin b → Fin 1 → EReal) (B2 : Fin 1 → EReal) :
    netOut zr L gs dis X W1 B1 W2 B2
      = layerOut 0 L gs dis (lin (fun p k => max (layerOut 0 L gs dis (lin X W1) B1 p k) zr) W2) B2 := rfl

/-! ## The composed term at an entry, from the inside out -/

/-- The first product's rows, each scaled by its node's weight. -/
theorem scaledFeatures_at (X0 : (⟨S100000x3, .f32⟩ : BufTy).Contents (Elt Ideal)) (x1 : EdgeArr)
    (X2 : (⟨S3x16, .f32⟩ : BufTy).Contents (Elt Ideal)) (g : Fin 100000) (k : Fin 16) :
    (scaledProduct0 X0 X2 (shapeCast S100000x1 (val_main_v14 (F := Ideal) x1) shapeCasts_S100000_S100000x1)) (ix2 g k) = lin (fun p k => X0 (ix2 p k)) (fun k j => X2 (ix2 k j)) g k * disv x1 g := by
  rw [scaledProduct0_ix2, weightCol_at, lin_apply]

/-- Their neighbourhood sum. -/
theorem firstSum_at (X0 : (⟨S100000x3, .f32⟩ : BufTy).Contents (Elt Ideal)) (x1 : EdgeArr)
    (X2 : (⟨S3x16, .f32⟩ : BufTy).Contents (Elt Ideal)) (p : Fin 100000) (k : Fin 16) :
    (aggTerm16 (scaledProduct0 X0 X2 (shapeCast S100000x1 (val_main_v14 (F := Ideal) x1) shapeCasts_S100000_S100000x1)) (val_main_v3 (F := Ideal) x1) (val_main_v6 (F := Ideal) x1)) (ix2 p k)
      = 0 + ∑ e : Fin 3300000, if lands x1 e p then lin (fun p k => X0 (ix2 p k)) (fun k j => X2 (ix2 k j)) (gsrc x1 e) k * disv x1 (gsrc x1 e) else 0 := by
  rw [agg16_at]
  refine congrArg (fun s : EReal => 0 + s) (Finset.sum_congr rfl fun e _ => ?_)
  rw [scaledFeatures_at]

/-- The first layer's output: the sum scaled by the collecting node's weight, plus the bias, or zero. -/
theorem firstLayer_at (X0 : (⟨S100000x3, .f32⟩ : BufTy).Contents (Elt Ideal)) (x1 : EdgeArr)
    (X2 : (⟨S3x16, .f32⟩ : BufTy).Contents (Elt Ideal)) (X3 : (⟨S16, .f32⟩ : BufTy).Contents (Elt Ideal)) (p : Fin 100000) (k : Fin 16) :
    (scaledRowsPlusBiasOrZero (aggTerm16 (scaledProduct0 X0 X2 (shapeCast S100000x1 (val_main_v14 (F := Ideal) x1) shapeCasts_S100000_S100000x1)) (val_main_v3 (F := Ideal) x1) (val_main_v6 (F := Ideal) x1)) (shapeCast S100000x1 (val_main_v14 (F := Ideal) x1) shapeCasts_S100000_S100000x1) (shapeCast S1x16 X3 shapeCasts_S16_S1x16)) (ix2 p k) = max ((layerOut 0 (lands x1) (gsrc x1) (disv x1) (lin (fun p k => X0 (ix2 p k)) (fun k j => X2 (ix2 k j))) (fun j => X3 (ix1 j))) p k) 0 := by
  rw [scaledRowsPlusBiasOrZero_ix2, firstSum_at, weightCol_at, biasRow16_at, Ideal.ofBits_zero_f32, layerOut_apply]

/-- The second product's rows, each scaled by its node's weight. -/
theorem scaledHidden_at (X0 : (⟨S100000x3, .f32⟩ : BufTy).Contents (Elt Ideal)) (x1 : EdgeArr)
    (X2 : (⟨S3x16, .f32⟩ : BufTy).Contents (Elt Ideal)) (X3 : (⟨S16, .f32⟩ : BufTy).Contents (Elt Ideal))
    (X4 : (⟨S16x1, .f32⟩ : BufTy).Contents (Elt Ideal)) (g : Fin 100000) (q : Fin 1) :
    (scaledProduct2 (scaledRowsPlusBiasOrZero (aggTerm16 (scaledProduct0 X0 X2 (shapeCast S100000x1 (val_main_v14 (F := Ideal) x1) shapeCasts_S100000_S100000x1)) (val_main_v3 (F := Ideal) x1) (val_main_v6 (F := Ideal) x1)) (shapeCast S100000x1 (val_main_v14 (F := Ideal) x1) shapeCasts_S100000_S100000x1) (shapeCast S1x16 X3 shapeCasts_S16_S1x16)) X4 (shapeCast S100000x1 (val_main_v14 (F := Ideal) x1) shapeCasts_S100000_S100000x1)) (ix2 g q) = (lin (fun p k => max ((layerOut 0 (lands x1) (gsrc x1) (disv x1) (lin (fun p k => X0 (ix2 p k)) (fun k j => X2 (ix2 k j))) (fun j => X3 (ix1 j))) p k) 0) (fun k j => X4 (ix2 k j))) g q * disv x1 g := by
  rw [scaledProduct2_ix2, weightCol_at, lin_apply]
  refine congrArg (fun s : EReal => s * disv x1 g) (Finset.sum_congr rfl fun k _ => ?_)
  rw [firstLayer_at]

/-- Their neighbourhood sum. -/
theorem secondSum_at (X0 : (⟨S100000x3, .f32⟩ : BufTy).Contents (Elt Ideal)) (x1 : EdgeArr)
    (X2 : (⟨S3x16, .f32⟩ : BufTy).Contents (Elt Ideal)) (X3 : (⟨S16, .f32⟩ : BufTy).Contents (Elt Ideal))
    (X4 : (⟨S16x1, .f32⟩ : BufTy).Contents (Elt Ideal)) (p : Fin 100000) (q : Fin 1) :
    (aggTerm1 (scaledProduct2 (scaledRowsPlusBiasOrZero (aggTerm16 (scaledProduct0 X0 X2 (shapeCast S100000x1 (val_main_v14 (F := Ideal) x1) shapeCasts_S100000_S100000x1)) (val_main_v3 (F := Ideal) x1) (val_main_v6 (F := Ideal) x1)) (shapeCast S100000x1 (val_main_v14 (F := Ideal) x1) shapeCasts_S100000_S100000x1) (shapeCast S1x16 X3 shapeCasts_S16_S1x16)) X4 (shapeCast S100000x1 (val_main_v14 (F := Ideal) x1) shapeCasts_S100000_S100000x1)) (val_main_v3 (F := Ideal) x1) (val_main_v6 (F := Ideal) x1)) (ix2 p q)
      = 0 + ∑ e : Fin 3300000, if lands x1 e p then (lin (fun p k => max ((layerOut 0 (lands x1) (gsrc x1) (disv x1) (lin (fun p k => X0 (ix2 p k)) (fun k j => X2 (ix2 k j))) (fun j => X3 (ix1 j))) p k) 0) (fun k j => X4 (ix2 k j))) (gsrc x1 e) q * disv x1 (gsrc x1 e) else 0 := by
  rw [agg1_at]
  refine congrArg (fun s : EReal => 0 + s) (Finset.sum_congr rfl fun e _ => ?_)
  rw [scaledHidden_at]

/-- Over any argument arrays: the composed term at row p and column q is the specification's network with the weights
    outside the sums. -/
theorem net_entry (X0 : (⟨S100000x3, .f32⟩ : BufTy).Contents (Elt Ideal)) (x1 : EdgeArr)
    (X2 : (⟨S3x16, .f32⟩ : BufTy).Contents (Elt Ideal)) (X3 : (⟨S16, .f32⟩ : BufTy).Contents (Elt Ideal))
    (X4 : (⟨S16x1, .f32⟩ : BufTy).Contents (Elt Ideal)) (X5 : (⟨S1, .f32⟩ : BufTy).Contents (Elt Ideal))
    (p : Fin 100000) (q : Fin 1) :
    (scaledColumnPlusBias (aggTerm1 (scaledProduct2 (scaledRowsPlusBiasOrZero (aggTerm16 (scaledProduct0 X0 X2 (shapeCast S100000x1 (val_main_v14 (F := Ideal) x1) shapeCasts_S100000_S100000x1)) (val_main_v3 (F := Ideal) x1) (val_main_v6 (F := Ideal) x1)) (shapeCast S100000x1 (val_main_v14 (F := Ideal) x1) shapeCasts_S100000_S100000x1) (shapeCast S1x16 X3 shapeCasts_S16_S1x16)) X4 (shapeCast S100000x1 (val_main_v14 (F := Ideal) x1) shapeCasts_S100000_S100000x1)) (val_main_v3 (F := Ideal) x1) (val_main_v6 (F := Ideal) x1)) (shapeCast S100000x1 (val_main_v14 (F := Ideal) x1) shapeCasts_S100000_S100000x1) (shapeCast S1x1 X5 shapeCasts_S1_S1x1)) (ix2 p q)
      = netOut 0 (lands x1) (gsrc x1) (disv x1) (fun p k => X0 (ix2 p k)) (fun k j => X2 (ix2 k j)) (fun j => X3 (ix1 j)) (fun k j => X4 (ix2 k j)) (fun j => X5 (ix1 j)) p q := by
  rw [scaledColumnPlusBias_ix2, secondSum_at, weightCol_at, biasRow1_at, netOut_apply, layerOut_apply]

/-- THE KERNEL PROGRAM'S RESULT ARRAY, from the launch memory. -/
theorem kernel_value (m : (ℓ : Loc nD τ sig) → Buf (Elt Ideal) ℓ) (ρ : Dev nD → PrngReg) (c : Dev nD) :
    W10 m ρ c (Proc.devRef .tc main_v44)
      = fun i : S100000x1.Idx => netOut 0 (lands (edges m c)) (gsrc (edges m c)) (disv (edges m c))
          (fun p k => m ((c : Thread nD τ).loc main_arg0) (ix2 p k)) (fun k j => m ((c : Thread nD τ).loc main_arg2) (ix2 k j))
          (fun j => m ((c : Thread nD τ).loc main_arg3) (ix1 j)) (fun k j => m ((c : Thread nD τ).loc main_arg4) (ix2 k j))
          (fun j => m ((c : Thread nD τ).loc main_arg5) (ix1 j)) (i 0 : Fin 100000) (i 1 : Fin 1) := by
  rw [result_array]
  funext i
  obtain ⟨p, q, rfl⟩ : ∃ (p : Fin 100000) (q : Fin 1), i = ix2 p q := ⟨i 0, i 1, eq_ix2 i⟩
  exact net_entry _ _ _ _ _ _ p q

end Cert.KernelIdeal.EntryValue

end
-- ==== Proof.lean ====
/-
  The proof of `Cert.Claim`: a two-layer graph convolution computed with the symmetric edge normalisation folded into
  a per-node scale before and after each neighbourhood sum, against the same two layers with the normalisation applied
  edge by edge.

  Both programs build the same graph data from the edge array: the source and destination vectors with one self-loop
  per node appended, the per-node edge count, and the node weight (the count's reciprocal square root where the count is
  positive, zero elsewhere). The reference scales every gathered row by the two end points' weights and adds the rows
  up by destination; the kernel program scales the rows of the product by their own node's weight, adds them up, and
  scales the sum by the collecting node's weight. An edge that is added to node p has p as its destination, so the
  two differ by moving the factor weight(p) across a finite sum, which is sound on the extended reals because the
  weight is a nonnegative real number (Proof/Spec.lean, Proof/Facts.lean). The kernel program's result is read off its
  run segment by segment (Proof/KernelRun.lean, Proof/KernelHost.lean, the four launches in Proof/RegionsLinear.lean and
  Proof/RegionsAffine.lean, the host composites in Proof/KernelStretch.lean, the entry in Proof/KernelValue.lean); the
  reference's from its run read back stage by stage (Proof/RefValue.lean).
-/
import proofs.«149689_j18133351924184_2_alg».proof.Defs
import proofs.«149689_j18133351924184_2_alg».proof.Proof.Gen.Kernel
import proofs.«149689_j18133351924184_2_alg».proof.Proof.Gen.Kernel.Skeleton
import proofs.«149689_j18133351924184_2_alg».proof.Proof.Gen.Kernel.Launch
import proofs.«149689_j18133351924184_2_alg».proof.Proof.Gen.Kernel.Points
import proofs.«149689_j18133351924184_2_alg».proof.Proof.Gen.Kernel.Frame
import proofs.«149689_j18133351924184_2_alg».proof.Proof.Gen.KernelIdeal
import proofs.«149689_j18133351924184_2_alg».proof.Proof.Gen.KernelIdeal.Skeleton
import proofs.«149689_j18133351924184_2_alg».proof.Proof.Gen.KernelIdeal.Launch
import proofs.«149689_j18133351924184_2_alg».proof.Proof.Gen.KernelIdeal.Points
import proofs.«149689_j18133351924184_2_alg».proof.Proof.Gen.KernelIdeal.Frame
import proofs.«149689_j18133351924184_2_alg».proof.Proof.Gen.ReferenceIdeal
import proofs.«149689_j18133351924184_2_alg».proof.Proof.RefRun
import proofs.«149689_j18133351924184_2_alg».proof.Proof.RefRead
import proofs.«149689_j18133351924184_2_alg».proof.Proof.Gen.Pre_finite_inputs
import proofs.«149689_j18133351924184_2_alg».proof.Proof.Facts
import proofs.«149689_j18133351924184_2_alg».proof.Proof.RefValue
import proofs.«149689_j18133351924184_2_alg».proof.Proof.KernelRun
import proofs.«149689_j18133351924184_2_alg».proof.Proof.KernelValue
import Idealize.ShloMosaic.Adequacy
import Idealize.ShloMosaic.Init

noncomputable section

namespace Cert.Proof

open Idealize.ShloMosaic Idealize.ShloMosaic.ValueIdx Idealize.SL.Sem

/-- The word-level program runs and leaves its arguments as launched. -/
theorem frame_k : Cert.frame_Kernel := fun m ρ _ => Cert.Kernel.Gen.frame m ρ

/-- So does the program read on the extended reals. -/
theorem frame_ki : Cert.frame_KernelIdeal := fun m ρ _ => Cert.KernelIdeal.Gen.frame m ρ

/-- The reference runs and leaves its arguments as launched: its run read back, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten on the way to the extended reals. -/
theorem preserves : Cert.preserves_Kernel_KernelIdeal := trivial

/-- From memories agreeing on the arguments both programs end with the same result array: the kernel program's is the
    two layers with the weights outside the sums, the reference's the two layers with the weights inside, and the two
    are one function because every weight is a nonnegative real and an edge added to a node has it as destination. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.EntryValue.kernel_value m ρ c), (h c).2⟩)
    (Cert.KernelIdeal.RunValue.run_result (F := Ideal) m ρ), ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v78_eq, (hagree c).1, (hagree c).2.1, (hagree c).2.2.1, (hagree c).2.2.2.1,
    (hagree c).2.2.2.2.1, (hagree c).2.2.2.2.2]
  funext i
  obtain ⟨p, q, rfl⟩ : ∃ (p : Fin 100000) (q : Fin 1), i = ix2 p q := ⟨i 0, i 1, eq_ix2 i⟩
  rw [Cert.ReferenceIdeal.RefValue.ref_entry]
  exact (congrFun (congrFun (Cert.Gcn.netOut_eq_netIn 0 _ _ _ _ (Cert.Gcn.disv_real _) (Cert.Gcn.gdst_of_lands _) _ _ _ _ _) p) q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
